-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v92_0)) (v1 : (c : Dev Cert.KernelIdeal.nD) → Buf (Elt Ideal) ((c.tc : Thread Cert.KernelIdeal.nD Cert.KernelIdeal.τ).loc Cert.KernelIdeal.main_v92_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92_0) = v0 c
          ∧ r.2.mem ((c.tc : Thread Cert.KernelIdeal.nD Cert.KernelIdeal.τ).loc Cert.KernelIdeal.main_v92_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S3x128x128 : Shape := ⟨3, ![3, 128, 128]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_

variable [Facts]

def fn_part5 {F : FTy → Type} [FloatOps F] (main_arg18 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg14 : FVec F S128 .f32) (main_arg15 : FVec F S128 .f32) (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S3x128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S3x128x128 .f32 := Host.absf main_arg11
  let main_cst_20 : FVec F S_ .f32 := constant S_ .f32 0x7F800000#32
  let main_v55 : FVec F S3x128x128 .f32 := broadcastInDim S3x128x128 ![] bcast_S_S3x128x128 main_cst_20
  let main_v56 : IVec S3x128x128 1 := cmpf .olt main_v54 main_v55
  let main_c_21 : IVec S_ 1 := constantI S_ 1 1#1
  let main_v57 : IVec S_ 1 := (fun x v => Host.reduce IntOp.andi x v reducesTo_S3x128x128_S_d0_1_2 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_v63 main_v67

def fn_part2 {F : FTy → Type} [FloatOps F] (main_arg7 : FVec F S128x128 .f32) (main_arg8 : FVec F S3x128x128 .f32) (main_arg9 : FVec F S3x128x128 .f32) (main_arg10 : FVec F S3x128x128 .f32) (main_arg11 : FVec F S3x128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S3x128x128 .f32 := Host.absf main_arg8
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128x128 .f32 := Host.absf main_arg9
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  let main_v49 : FVec F S3x128x128 .f32 := Host.absf main_arg10
  let main_cst_18 : FVec F S_ .f32 := constant S_ .f32 0x7F800000#32
  let main_v50 : FVec F S3x128x128 .f32 := broadcastInDim S3x128x128 ![] bcast_S_S3x128x128 main_cst_18
  fn_part3 (F := F) main_arg11 main_arg12 main_arg13 main_arg14 main_arg15 main_arg16 main_arg17 main_arg18 main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S3x128x128 .f32) (main_arg9 : FVec F S3x128x128 .f32) (main_arg10 : FVec F S3x128x128 .f32) (main_arg11 : FVec F S3x128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S50000x128 .f32) (main_arg1 : FVec F S50000x128 .f32) (main_arg2 : FVec F S50000x128 .f32) (main_arg3 : FVec F S800000 .f32) (main_arg4 : FVec F S128x128 .f32) (main_arg5 : FVec F S128x128 .f32) (main_arg6 : FVec F S128x128 .f32) (main_arg7 : FVec F S128x128 .f32) (main_arg8 : FVec F S3x128x128 .f32) (main_arg9 : FVec F S3x128x128 .f32) (main_arg10 : FVec F S3x128x128 .f32) (main_arg11 : FVec F S3x128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S800000 : Shape := ⟨1, ![800000]⟩
abbrev S128x128 : Shape := ⟨2, ![128, 128]⟩
abbrev S3x128x128 : Shape := ⟨3, ![3, 128, 128]⟩
abbrev S128 : Shape := ⟨1, ![128]⟩
abbrev S2x800000 : Shape := ⟨2, ![2, 800000]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S128x512 : Shape := ⟨2, ![128, 512]⟩
abbrev S1x128x128 : Shape := ⟨3, ![1, 128, 128]⟩
abbrev S512 : Shape := ⟨1, ![512]⟩
abbrev S1x512 : Shape := ⟨2, ![1, 512]⟩
abbrev S1x128 : Shape := ⟨2, ![1, 128]⟩
abbrev S2000x128 : Shape := ⟨2, ![2000, 128]⟩
abbrev S2000x512 : Shape := ⟨2, ![2000, 512]⟩

abbrev nBuf : Space → Nat
  | .hbm => 131
  | .vmem => 22
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S800000, .f32⟩
  | 4 => ⟨S128x128, .f32⟩
  | 5 => ⟨S128x128, .f32⟩
  | 6 => ⟨S128x128, .f32⟩
  | 7 => ⟨S128x128, .f32⟩
  | 8 => ⟨S3x128x128, .f32⟩
  | 9 => ⟨S3x128x128, .f32⟩
  | 10 => ⟨S3x128x128, .f32⟩
  | 11 => ⟨S3x128x128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S2x800000, .i32⟩
  | 20 => ⟨S1x800000, .i32⟩
  | 21 => ⟨S800000, .i32⟩
  | 22 => ⟨S1x800000, .i32⟩
  | 23 => ⟨S800000, .i32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000, .f32⟩
  | 59 => ⟨S800000, .f32⟩
  | 60 => ⟨S800000x1, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x128, .f32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S800000x1, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S800000x128, .f32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S128x512, .f32⟩
  | 97 => ⟨S1x128x128, .f32⟩
  | 98 => ⟨S128x128, .f32⟩
  | 99 => ⟨S1x128x128, .f32⟩
  | 100 => ⟨S128x128, .f32⟩
  | 101 => ⟨S1x128x128, .f32⟩
  | 102 => ⟨S128x128, .f32⟩
  | 103 => ⟨S1x128x128, .f32⟩
  | 104 => ⟨S128x128, .f32⟩
  | 105 => ⟨S128x512, .f32⟩
  | 106 => ⟨S1x128x128, .f32⟩
  | 107 => ⟨S128x128, .f32⟩
  | 108 => ⟨S1x128x128, .f32⟩
  | 109 => ⟨S128x128, .f32⟩
  | 110 => ⟨S1x128x128, .f32⟩
  | 111 => ⟨S128x128, .f32⟩
  | 112 => ⟨S1x128x128, .f32⟩
  | 113 => ⟨S128x128, .f32⟩
  | 114 => ⟨S128x512, .f32⟩
  | 115 => ⟨S1x128x128, .f32⟩
  | 116 => ⟨S128x128, .f32⟩
  | 117 => ⟨S1x128x128, .f32⟩
  | 118 => ⟨S128x128, .f32⟩
  | 119 => ⟨S1x128x128, .f32⟩
  | 120 => ⟨S128x128, .f32⟩
  | 121 => ⟨S1x128x128, .f32⟩
  | 122 => ⟨S128x128, .f32⟩
  | 123 => ⟨S128x512, .f32⟩
  | 124 => ⟨S512, .f32⟩
  | 125 => ⟨S1x512, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S1x512, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v12 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_3 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_c_7 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_8 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_9 : Ref sig .tc := ⟨.hbm, 77, rfl⟩
abbrev main_v44 : Ref sig .tc := ⟨.hbm, 78, rfl⟩
abbrev main_v45 : Ref sig .tc := ⟨.hbm, 79, rfl⟩
abbrev main_c_10 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_11 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_12 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92_0 : Ref sig .tc := ⟨.hbm, 129, rfl⟩
abbrev main_v92_1 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S128x128_S128x128_S128x128_S128x128_S128x512_d1 : Shape.Concatenates [S128x128, S128x128, S128x128, S128x128] S128x512 1
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  concatenates_S128_S128_S128_S128_S512_d0 : Shape.Concatenates [S128, S128, S128, S128] S512 0
  bcast_S512_S1x512_1 : S512.BroadcastsInDim S1x512 (![1] : Fin 1 → Fin S1x512.rank)
  bcast_S128_S1x128_1 : S128.BroadcastsInDim S1x128 (![1] : Fin 1 → Fin S1x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2000x512_o0_0_S2000x128 : S2000x512.Slices ![0, 0] S2000x128
  slices_S2000x512_o0_128_S2000x128 : S2000x512.Slices ![0, 128] S2000x128
  slices_S2000x512_o0_256_S2000x128 : S2000x512.Slices ![0, 256] S2000x128
  slices_S2000x512_o0_384_S2000x128 : S2000x512.Slices ![0, 384] S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S128x512.size a
  hwx0_6 : ∀ i : grid0.Coords, EltTy.bits .f32 = 32 ∨ (Rect.block (s := S128x512) S128x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .f32 = 32 ∨ (Rect.block (s := S128x512) S128x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S128x512.size a
  hwx0_8 : ∀ i : grid0.Coords, EltTy.bits .f32 = 32 ∨ (Rect.block (s := S128x512) S128x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S50000x128.size a
  hwx0_13 : ∀ i : grid0.Coords, EltTy.bits .f32 = 32 ∨ (Rect.block (s := S50000x128) S2000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S50000x128.size a
  hwx0_14 : ∀ i : grid0.Coords, EltTy.bits .f32 = 32 ∨ (Rect.block (s := S50000x128) S2000x128.size (cc0_transform_14 i) (hinb0_14 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v59) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v68) S128x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v77) S128x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v86) S128x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v88) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v89) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v90) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v91) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v92_0) S2000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v92_1) S2000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S3x128x128 : Shape := ⟨3, ![3, 128, 128]⟩
abbrev S128 : Shape := ⟨1, ![128]⟩
abbrev S2x800000 : Shape := ⟨2, ![2, 800000]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128x128 : Shape := ⟨3, ![1, 128, 128]⟩
abbrev S1x128 : Shape := ⟨2, ![1, 128]⟩

abbrev nBuf : Space → Nat
  | .hbm => 310
  | .vmem => 0
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S800000, .f32⟩
  | 4 => ⟨S128x128, .f32⟩
  | 5 => ⟨S128x128, .f32⟩
  | 6 => ⟨S128x128, .f32⟩
  | 7 => ⟨S128x128, .f32⟩
  | 8 => ⟨S3x128x128, .f32⟩
  | 9 => ⟨S3x128x128, .f32⟩
  | 10 => ⟨S3x128x128, .f32⟩
  | 11 => ⟨S3x128x128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S2x800000, .i32⟩
  | 20 => ⟨S1x800000, .i32⟩
  | 21 => ⟨S800000, .i32⟩
  | 22 => ⟨S1x800000, .i32⟩
  | 23 => ⟨S800000, .i32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000, .f32⟩
  | 59 => ⟨S800000, .f32⟩
  | 60 => ⟨S50000x128, .f32⟩
  | 61 => ⟨S800000x1, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S1x128x128, .f32⟩
  | 78 => ⟨S128x128, .f32⟩
  | 79 => ⟨S50000x128, .f32⟩
  | 80 => ⟨S1x128x128, .f32⟩
  | 81 => ⟨S128x128, .f32⟩
  | 82 => ⟨S50000x128, .f32⟩
  | 83 => ⟨S50000x128, .f32⟩
  | 84 => ⟨S800000x1, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S800000x128, .f32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S_, .f32⟩
  | 101 => ⟨S50000x128, .f32⟩
  | 102 => ⟨S50000x128, .f32⟩
  | 103 => ⟨S50000x128, .f32⟩
  | 104 => ⟨S1x128x128, .f32⟩
  | 105 => ⟨S128x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S50000x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S800000x1, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S800000x128, .f32⟩
  | 8 => ⟨S800000x128, .f32⟩
  | 9 => ⟨S_, .f32⟩
  | 10 => ⟨S50000x128, .f32⟩
  | 11 => ⟨S800000x1, .i32⟩
  | 12 => ⟨S50000x128, .f32⟩
  | 13 => ⟨S1x128x128, .f32⟩
  | 14 => ⟨S128x128, .f32⟩
  | 15 => ⟨S50000x128, .f32⟩
  | 16 => ⟨S1x128x128, .f32⟩
  | 17 => ⟨S128x128, .f32⟩
  | 18 => ⟨S50000x128, .f32⟩
  | 19 => ⟨S50000x128, .f32⟩
  | 20 => ⟨S800000x1, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S800000x128, .f32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S1x128x128, .f32⟩
  | 41 => ⟨S128x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S50000x128, .f32⟩
  | 61 => ⟨S800000x1, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S1x128x128, .f32⟩
  | 78 => ⟨S128x128, .f32⟩
  | 79 => ⟨S50000x128, .f32⟩
  | 80 => ⟨S1x128x128, .f32⟩
  | 81 => ⟨S128x128, .f32⟩
  | 82 => ⟨S50000x128, .f32⟩
  | 83 => ⟨S50000x128, .f32⟩
  | 84 => ⟨S800000x1, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S800000x128, .f32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S_, .f32⟩
  | 101 => ⟨S50000x128, .f32⟩
  | 102 => ⟨S50000x128, .f32⟩
  | 103 => ⟨S50000x128, .f32⟩
  | 104 => ⟨S1x128x128, .f32⟩
  | 105 => ⟨S128x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S50000x128, .f32⟩
  | 112 => ⟨S50000x128, .f32⟩
  | 113 => ⟨S50000x128, .f32⟩
  | 114 => ⟨S50000x128, .f32⟩
  | 115 => ⟨S50000x128, .f32⟩
  | 116 => ⟨S50000x128, .f32⟩
  | 117 => ⟨S800000x1, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S800000x128, .f32⟩
  | _ => ⟨S50000x128, .f32⟩

abbrev hbmTy0_2 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S1x128x128, .f32⟩
  | 6 => ⟨S128x128, .f32⟩
  | 7 => ⟨S50000x128, .f32⟩
  | 8 => ⟨S1x128x128, .f32⟩
  | 9 => ⟨S128x128, .f32⟩
  | 10 => ⟨S50000x128, .f32⟩
  | 11 => ⟨S50000x128, .f32⟩
  | 12 => ⟨S800000x1, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x128, .f32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S50000x128, .f32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S50000x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S50000x128, .f32⟩
  | 53 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v12 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_3 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_6 : Ref sig .tc := ⟨.hbm, 62, rfl⟩
abbrev main_v32 : Ref sig .tc := ⟨.hbm, 63, rfl⟩
abbrev main_v33 : Ref sig .tc := ⟨.hbm, 64, rfl⟩
abbrev main_c_7 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_c_9 : Ref sig .tc := ⟨.hbm, 85, rfl⟩
abbrev main_v52 : Ref sig .tc := ⟨.hbm, 86, rfl⟩
abbrev main_v53 : Ref sig .tc := ⟨.hbm, 87, rfl⟩
abbrev main_c_10 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_11 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_12 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_13 : Ref sig .tc := ⟨.hbm, 118, rfl⟩
abbrev main_v81 : Ref sig .tc := ⟨.hbm, 119, rfl⟩
abbrev main_v82 : Ref sig .tc := ⟨.hbm, 120, rfl⟩
abbrev main_cst_14 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_15 : Ref sig .tc := ⟨.hbm, 126, rfl⟩
abbrev main_v87 : Ref sig .tc := ⟨.hbm, 127, rfl⟩
abbrev main_v88 : Ref sig .tc := ⟨.hbm, 128, rfl⟩
abbrev main_c_16 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_17 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_c_18 : Ref sig .tc := ⟨.hbm, 149, rfl⟩
abbrev main_v107 : Ref sig .tc := ⟨.hbm, 150, rfl⟩
abbrev main_v108 : Ref sig .tc := ⟨.hbm, 151, rfl⟩
abbrev main_c_19 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_20 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_21 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_22 : Ref sig .tc := ⟨.hbm, 182, rfl⟩
abbrev main_v136 : Ref sig .tc := ⟨.hbm, 183, rfl⟩
abbrev main_v137 : Ref sig .tc := ⟨.hbm, 184, rfl⟩
abbrev main_cst_23 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_c_24 : Ref sig .tc := ⟨.hbm, 190, rfl⟩
abbrev main_v142 : Ref sig .tc := ⟨.hbm, 191, rfl⟩
abbrev main_v143 : Ref sig .tc := ⟨.hbm, 192, rfl⟩
abbrev main_c_25 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_26 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_c_27 : Ref sig .tc := ⟨.hbm, 213, rfl⟩
abbrev main_v162 : Ref sig .tc := ⟨.hbm, 214, rfl⟩
abbrev main_v163 : Ref sig .tc := ⟨.hbm, 215, rfl⟩
abbrev main_c_28 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_cst_29 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_30 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_c_31 : Ref sig .tc := ⟨.hbm, 246, rfl⟩
abbrev main_v191 : Ref sig .tc := ⟨.hbm, 247, rfl⟩
abbrev main_v192 : Ref sig .tc := ⟨.hbm, 248, rfl⟩
abbrev main_c_32 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_cst_33 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_c_34 : Ref sig .tc := ⟨.hbm, 269, rfl⟩
abbrev main_v211 : Ref sig .tc := ⟨.hbm, 270, rfl⟩
abbrev main_v212 : Ref sig .tc := ⟨.hbm, 271, rfl⟩
abbrev main_c_35 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_cst_36 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_cst_37 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_cst_38 : Ref sig .tc := ⟨.hbm, 302, rfl⟩
abbrev main_v240 : Ref sig .tc := ⟨.hbm, 303, rfl⟩
abbrev main_v241 : Ref sig .tc := ⟨.hbm, 304, rfl⟩
abbrev main_cst_39 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.EntryKernel.lean ====
/-
  The entry of the one region of `Kernel`, at any float instance.

  The program is three stretches of host operations (the normalized graph weights and the two sparse
  products T1 = L·h, T2 = 2·L·T1 − h; the four gates' weights laid side by side) followed by one
  pipelined region over 25 row blocks of 2000 rows. Here: the contents `V` of every TensorCore buffer
  when the region is entered (the launch memory pushed through the host operations); that the program
  up to the region is those operations; that no host operation writes an argument array, so the region
  finds each as launched; the block of each window at a grid point; that an input window's staging
  buffer holds its block at every point, whether fetched there or kept from the point before; and the
  frame statement (every argument array ends as launched) from a run whose post names every array.
-/
import proofs.«174544_j50483045597456_1_alg».proof.Proof.Gen.Kernel.Launch
import proofs.«174544_j50483045597456_1_alg».proof.Proof.Gen.Kernel.Skeleton
import proofs.«174544_j50483045597456_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s TensorCore buffers when the region is entered: the launch memory after the three
    stretches of host operations. -/
abbrev V (c : Dev nD) (b : Ref sig .tc) : Buf (Elt F) ((c : Thread nD τ).loc b) :=
  StableHlo.after (List.flatten [hostOps0, hostOps0_1, hostOps0_2]) (fun b => m (c, b)) b

/-- A host operation allocates nothing. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the region is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- A buffer that no host operation writes is found by the region as launched: each operation's written
    buffer is listed, and is another reference. -/
local macro "not_written" : tactic => `(tactic| (
  refine StableHlo.after_of_forall_not_mem _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

/-- No host operation before the region writes `main_arg0`. -/
theorem V_main_arg0 (c : Dev nD) : V m c main_arg0 = m ((c : Thread nD τ).loc main_arg0) := by
  not_written
/-- No host operation before the region writes `main_arg1`. -/
theorem V_main_arg1 (c : Dev nD) : V m c main_arg1 = m ((c : Thread nD τ).loc main_arg1) := by
  not_written
/-- No host operation before the region writes `main_arg2`. -/
theorem V_main_arg2 (c : Dev nD) : V m c main_arg2 = m ((c : Thread nD τ).loc main_arg2) := by
  not_written
/-- No host operation before the region writes `main_arg3`. -/
theorem V_main_arg3 (c : Dev nD) : V m c main_arg3 = m ((c : Thread nD τ).loc main_arg3) := by
  not_written
/-- No host operation before the region writes `main_arg4`. -/
theorem V_main_arg4 (c : Dev nD) : V m c main_arg4 = m ((c : Thread nD τ).loc main_arg4) := by
  not_written
/-- No host operation before the region writes `main_arg5`. -/
theorem V_main_arg5 (c : Dev nD) : V m c main_arg5 = m ((c : Thread nD τ).loc main_arg5) := by
  not_written
/-- No host operation before the region writes `main_arg6`. -/
theorem V_main_arg6 (c : Dev nD) : V m c main_arg6 = m ((c : Thread nD τ).loc main_arg6) := by
  not_written
/-- No host operation before the region writes `main_arg7`. -/
theorem V_main_arg7 (c : Dev nD) : V m c main_arg7 = m ((c : Thread nD τ).loc main_arg7) := by
  not_written
/-- No host operation before the region writes `main_arg8`. -/
theorem V_main_arg8 (c : Dev nD) : V m c main_arg8 = m ((c : Thread nD τ).loc main_arg8) := by
  not_written
/-- No host operation before the region writes `main_arg9`. -/
theorem V_main_arg9 (c : Dev nD) : V m c main_arg9 = m ((c : Thread nD τ).loc main_arg9) := by
  not_written
/-- No host operation before the region writes `main_arg10`. -/
theorem V_main_arg10 (c : Dev nD) : V m c main_arg10 = m ((c : Thread nD τ).loc main_arg10) := by
  not_written
/-- No host operation before the region writes `main_arg11`. -/
theorem V_main_arg11 (c : Dev nD) : V m c main_arg11 = m ((c : Thread nD τ).loc main_arg11) := by
  not_written
/-- No host operation before the region writes `main_arg12`. -/
theorem V_main_arg12 (c : Dev nD) : V m c main_arg12 = m ((c : Thread nD τ).loc main_arg12) := by
  not_written
/-- No host operation before the region writes `main_arg13`. -/
theorem V_main_arg13 (c : Dev nD) : V m c main_arg13 = m ((c : Thread nD τ).loc main_arg13) := by
  not_written
/-- No host operation before the region writes `main_arg14`. -/
theorem V_main_arg14 (c : Dev nD) : V m c main_arg14 = m ((c : Thread nD τ).loc main_arg14) := by
  not_written
/-- No host operation before the region writes `main_arg15`. -/
theorem V_main_arg15 (c : Dev nD) : V m c main_arg15 = m ((c : Thread nD τ).loc main_arg15) := by
  not_written
/-- No host operation before the region writes `main_arg16`. -/
theorem V_main_arg16 (c : Dev nD) : V m c main_arg16 = m ((c : Thread nD τ).loc main_arg16) := by
  not_written
/-- No host operation before the region writes `main_arg17`. -/
theorem V_main_arg17 (c : Dev nD) : V m c main_arg17 = m ((c : Thread nD τ).loc main_arg17) := by
  not_written
/-- No host operation before the region writes `main_arg18`. -/
theorem V_main_arg18 (c : Dev nD) : V m c main_arg18 = m ((c : Thread nD τ).loc main_arg18) := by
  not_written
/-- No host operation before the region writes `main_arg19`. -/
theorem V_main_arg19 (c : Dev nD) : V m c main_arg19 = m ((c : Thread nD τ).loc main_arg19) := by
  not_written

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, for any proof data whose
    array is the region-entry contents and whose body leaves the block in place: at a point that does not
    fetch, the window's index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run that names every array -/

set_option maxHeartbeats 1200000 in
/-- In a final state that names every array of the pipeline, every argument array is as launched: an array a
    window stages as an input ends at its region-entry contents, an array no window stages is left alone by the
    region, and the region found each as launched. -/
theorem frame_post_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 4).trans (((dats 0 c).arrAt_in 4 rfl _).trans ((hA c 4).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩

/-- The frame statement from a run whose post names every array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => frame_post_of m dats hA r h c) h

end Cert.Kernel.Entry

end
-- ==== Proof.BodyKernel.lean ====
/-
  The body of the one region of `Kernel` at a grid point, and the run of the whole program, at any
  float instance.

  At a point the body reads its thirteen input blocks whole (the rows' features x, T0, T1, T2 and the
  previous cell state, the four stacked weight matrices, the stacked bias row and the three peephole
  rows), forms the four gates' pre-activations as one [2000,512] sum of four matrix products plus the
  bias, cuts it into the four gates' column bands, and stores the new cell state and the new hidden
  state, each covering its output block with one store. So after the body each output's staging buffer
  holds one pure function of the input blocks. With that as the proof data (inputs left in place, the
  region's invariant the scoped rest and the generator register, full shares, nothing owed) the launch
  theorem gives the run: it terminates without fault, every array of the pipeline ends at what the
  write-backs leave, every other buffer as the region found it.
-/
import proofs.«174544_j50483045597456_1_alg».proof.Proof.EntryKernel

set_option maxRecDepth 16384

noncomputable section

namespace Cert.Kernel.Body

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole buffer -/

abbrev rRows : Rect S2000x128 := Rect.unit (s := S2000x128) ![0, 0] S2000x128.size inb_S2000x128_S2000x128_0_0
abbrev rMat : Rect S128x512 := Rect.unit (s := S128x512) ![0, 0] S128x512.size inb_S128x512_S128x512_0_0
abbrev rBias : Rect S1x512 := Rect.unit (s := S1x512) ![0, 0] S1x512.size inb_S1x512_S1x512_0_0
abbrev rPeep : Rect S1x128 := Rect.unit (s := S1x128) ![0, 0] S1x128.size inb_S1x128_S1x128_0_0

/-! ## What the body leaves in each output's buffer -/

/-- The new cell state of a row block, from the thirteen input blocks: the input and forget gates'
    bands with their peephole terms through the logistic function, the candidate band through tanh,
    f·c + i·g. -/
def cellBlk (x0 : Vec F S2000x128 .f32) (x1 : Vec F S2000x128 .f32) (x2 : Vec F S2000x128 .f32) (x3 : Vec F S2000x128 .f32) (x4 : Vec F S2000x128 .f32) (x5 : Vec F S128x512 .f32) (x6 : Vec F S128x512 .f32) (x7 : Vec F S128x512 .f32) (x8 : Vec F S128x512 .f32) (x9 : Vec F S1x512 .f32) (x10 : Vec F S1x128 .f32) (x11 : Vec F S1x128 .f32) (x12 : Vec F S1x128 .f32) : Vec F S2000x128 .f32 :=
  k0_pay1
    (k0_pay4 (View.ld x0 rRows) (View.ld x1 rRows) (View.ld x2 rRows) (View.ld x3 rRows) (View.ld x5 rMat) (View.ld x6 rMat) (View.ld x7 rMat) (View.ld x8 rMat) (View.ld x9 rBias))
    (k0_pay5 (View.ld x0 rRows) (View.ld x1 rRows) (View.ld x2 rRows) (View.ld x3 rRows) (View.ld x5 rMat) (View.ld x6 rMat) (View.ld x7 rMat) (View.ld x8 rMat) (View.ld x9 rBias))
    (k0_pay6 (View.ld x0 rRows) (View.ld x1 rRows) (View.ld x2 rRows) (View.ld x3 rRows) (View.ld x5 rMat) (View.ld x6 rMat) (View.ld x7 rMat) (View.ld x8 rMat) (View.ld x9 rBias))
    (View.ld x4 rRows) (View.ld x10 rPeep) (View.ld x11 rPeep)

/-- The new hidden state of a row block: the output gate's band with its peephole term on the NEW cell
    state through the logistic function, times tanh of the new cell state. -/
def hiddenBlk (x0 : Vec F S2000x128 .f32) (x1 : Vec F S2000x128 .f32) (x2 : Vec F S2000x128 .f32) (x3 : Vec F S2000x128 .f32) (x4 : Vec F S2000x128 .f32) (x5 : Vec F S128x512 .f32) (x6 : Vec F S128x512 .f32) (x7 : Vec F S128x512 .f32) (x8 : Vec F S128x512 .f32) (x9 : Vec F S1x512 .f32) (x10 : Vec F S1x128 .f32) (x11 : Vec F S1x128 .f32) (x12 : Vec F S1x128 .f32) : Vec F S2000x128 .f32 :=
  k0_pay2
    (k0_pay4 (View.ld x0 rRows) (View.ld x1 rRows) (View.ld x2 rRows) (View.ld x3 rRows) (View.ld x5 rMat) (View.ld x6 rMat) (View.ld x7 rMat) (View.ld x8 rMat) (View.ld x9 rBias))
    (k0_pay5 (View.ld x0 rRows) (View.ld x1 rRows) (View.ld x2 rRows) (View.ld x3 rRows) (View.ld x5 rMat) (View.ld x6 rMat) (View.ld x7 rMat) (View.ld x8 rMat) (View.ld x9 rBias))
    (k0_pay6 (View.ld x0 rRows) (View.ld x1 rRows) (View.ld x2 rRows) (View.ld x3 rRows) (View.ld x5 rMat) (View.ld x6 rMat) (View.ld x7 rMat) (View.ld x8 rMat) (View.ld x9 rBias))
    (k0_pay7 (View.ld x0 rRows) (View.ld x1 rRows) (View.ld x2 rRows) (View.ld x3 rRows) (View.ld x5 rMat) (View.ld x6 rMat) (View.ld x7 rMat) (View.ld x8 rMat) (View.ld x9 rBias))
    (View.ld x4 rRows) (View.ld x10 rPeep) (View.ld x11 rPeep) (View.ld x12 rPeep)

/-- Window 13's buffer (the hidden state's block) after the body: its one store, over the whole buffer. -/
def out0_13 (x0 : Vec F S2000x128 .f32) (x1 : Vec F S2000x128 .f32) (x2 : Vec F S2000x128 .f32) (x3 : Vec F S2000x128 .f32) (x4 : Vec F S2000x128 .f32) (x5 : Vec F S128x512 .f32) (x6 : Vec F S128x512 .f32) (x7 : Vec F S128x512 .f32) (x8 : Vec F S128x512 .f32) (x9 : Vec F S1x512 .f32) (x10 : Vec F S1x128 .f32) (x11 : Vec F S1x128 .f32) (x12 : Vec F S1x128 .f32) : Vec F S2000x128 .f32 :=
  View.canon [⟨rRows, hiddenBlk x0 x1 x2 x3 x4 x5 x6 x7 x8 x9 x10 x11 x12⟩]

/-- Window 14's buffer (the cell state's block) after the body: its one store, over the whole buffer. -/
def out0_14 (x0 : Vec F S2000x128 .f32) (x1 : Vec F S2000x128 .f32) (x2 : Vec F S2000x128 .f32) (x3 : Vec F S2000x128 .f32) (x4 : Vec F S2000x128 .f32) (x5 : Vec F S128x512 .f32) (x6 : Vec F S128x512 .f32) (x7 : Vec F S128x512 .f32) (x8 : Vec F S128x512 .f32) (x9 : Vec F S1x512 .f32) (x10 : Vec F S1x128 .f32) (x11 : Vec F S1x128 .f32) (x12 : Vec F S1x128 .f32) : Vec F S2000x128 .f32 :=
  View.canon [⟨rRows, cellBlk x0 x1 x2 x3 x4 x5 x6 x7 x8 x9 x10 x11 x12⟩]

/-- One store through the whole-buffer rectangle covers the buffer. -/
theorem cover0_13 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y
theorem cover0_14 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 4000000 in
/-- The body on whole staging memrefs, the inputs' at contents `xW` and the outputs' at anything, runs to
    the continuation with the inputs' as they were and each output's at its function of the inputs'. (The
    body also loads both output buffers before storing into them; the loaded values are not used.) -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S1x512 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S2000x128 .f32) (harg14 : arg14.IsWhole) (arg15 : Memref sig .tc .vmem S2000x128 .f32) (harg15 : arg15.IsWhole)
    (x0 : Vec F S2000x128 .f32) (x1 : Vec F S2000x128 .f32) (x2 : Vec F S2000x128 .f32) (x3 : Vec F S2000x128 .f32) (x4 : Vec F S2000x128 .f32) (x5 : Vec F S128x512 .f32) (x6 : Vec F S128x512 .f32) (x7 : Vec F S128x512 .f32) (x8 : Vec F S128x512 .f32) (x9 : Vec F S1x512 .f32) (x10 : Vec F S1x128 .f32) (x11 : Vec F S1x128 .f32) (x12 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12)) -∗ K ⟨⟩))
      ⊢ wp frame (wpE (defs₀ (F := F)) Variants.none c none) E (cc0__gclstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__gclstm_kernel_eq_skeleton]; unfold cc0__gclstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (cover0_13 _)
  iexists _; isplitr
  swap; · iexact H14
  ipureintro
  try dsimp only
  exact View.read_writes_eq_canon _ _ _ (cover0_14 _)

/-! ## The pipeline's proof data -/

/-- The proof data of the pipeline on core `c`: the arrays as the region finds them; after the body at
    point `t` each input's buffer at its block and each output's at its function of the input blocks;
    the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' memrefs hold their blocks, so the triple applies; the invariant and
    the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without fault,
    every array of the pipeline ends at what the write-backs leave of the proof data, and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

end Cert.Kernel.Body

end
-- ==== Proof.EntryKernelIdeal.lean ====
/-
  The entry of the one region of `KernelIdeal`, at any float instance.

  The program is three stretches of host operations (the normalized graph weights and the two sparse
  products T1 = L·h, T2 = 2·L·T1 − h; the four gates' weights laid side by side) followed by one
  pipelined region over 25 row blocks of 2000 rows. Here: the contents `V` of every TensorCore buffer
  when the region is entered (the launch memory pushed through the host operations); that the program
  up to the region is those operations; that no host operation writes an argument array, so the region
  finds each as launched; the block of each window at a grid point; that an input window's staging
  buffer holds its block at every point, whether fetched there or kept from the point before; and the
  frame statement (every argument array ends as launched) from a run whose post names every array.
-/
import proofs.«174544_j50483045597456_1_alg».proof.Proof.Gen.KernelIdeal.Launch
import proofs.«174544_j50483045597456_1_alg».proof.Proof.Gen.KernelIdeal.Skeleton
import proofs.«174544_j50483045597456_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s TensorCore buffers when the region is entered: the launch memory after the three
    stretches of host operations. -/
abbrev V (c : Dev nD) (b : Ref sig .tc) : Buf (Elt F) ((c : Thread nD τ).loc b) :=
  StableHlo.after (List.flatten [hostOps0, hostOps0_1, hostOps0_2]) (fun b => m (c, b)) b

/-- A host operation allocates nothing. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the region is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- A buffer that no host operation writes is found by the region as launched: each operation's written
    buffer is listed, and is another reference. -/
local macro "not_written" : tactic => `(tactic| (
  refine StableHlo.after_of_forall_not_mem _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

/-- No host operation before the region writes `main_arg0`. -/
theorem V_main_arg0 (c : Dev nD) : V m c main_arg0 = m ((c : Thread nD τ).loc main_arg0) := by
  not_written
/-- No host operation before the region writes `main_arg1`. -/
theorem V_main_arg1 (c : Dev nD) : V m c main_arg1 = m ((c : Thread nD τ).loc main_arg1) := by
  not_written
/-- No host operation before the region writes `main_arg2`. -/
theorem V_main_arg2 (c : Dev nD) : V m c main_arg2 = m ((c : Thread nD τ).loc main_arg2) := by
  not_written
/-- No host operation before the region writes `main_arg3`. -/
theorem V_main_arg3 (c : Dev nD) : V m c main_arg3 = m ((c : Thread nD τ).loc main_arg3) := by
  not_written
/-- No host operation before the region writes `main_arg4`. -/
theorem V_main_arg4 (c : Dev nD) : V m c main_arg4 = m ((c : Thread nD τ).loc main_arg4) := by
  not_written
/-- No host operation before the region writes `main_arg5`. -/
theorem V_main_arg5 (c : Dev nD) : V m c main_arg5 = m ((c : Thread nD τ).loc main_arg5) := by
  not_written
/-- No host operation before the region writes `main_arg6`. -/
theorem V_main_arg6 (c : Dev nD) : V m c main_arg6 = m ((c : Thread nD τ).loc main_arg6) := by
  not_written
/-- No host operation before the region writes `main_arg7`. -/
theorem V_main_arg7 (c : Dev nD) : V m c main_arg7 = m ((c : Thread nD τ).loc main_arg7) := by
  not_written
/-- No host operation before the region writes `main_arg8`. -/
theorem V_main_arg8 (c : Dev nD) : V m c main_arg8 = m ((c : Thread nD τ).loc main_arg8) := by
  not_written
/-- No host operation before the region writes `main_arg9`. -/
theorem V_main_arg9 (c : Dev nD) : V m c main_arg9 = m ((c : Thread nD τ).loc main_arg9) := by
  not_written
/-- No host operation before the region writes `main_arg10`. -/
theorem V_main_arg10 (c : Dev nD) : V m c main_arg10 = m ((c : Thread nD τ).loc main_arg10) := by
  not_written
/-- No host operation before the region writes `main_arg11`. -/
theorem V_main_arg11 (c : Dev nD) : V m c main_arg11 = m ((c : Thread nD τ).loc main_arg11) := by
  not_written
/-- No host operation before the region writes `main_arg12`. -/
theorem V_main_arg12 (c : Dev nD) : V m c main_arg12 = m ((c : Thread nD τ).loc main_arg12) := by
  not_written
/-- No host operation before the region writes `main_arg13`. -/
theorem V_main_arg13 (c : Dev nD) : V m c main_arg13 = m ((c : Thread nD τ).loc main_arg13) := by
  not_written
/-- No host operation before the region writes `main_arg14`. -/
theorem V_main_arg14 (c : Dev nD) : V m c main_arg14 = m ((c : Thread nD τ).loc main_arg14) := by
  not_written
/-- No host operation before the region writes `main_arg15`. -/
theorem V_main_arg15 (c : Dev nD) : V m c main_arg15 = m ((c : Thread nD τ).loc main_arg15) := by
  not_written
/-- No host operation before the region writes `main_arg16`. -/
theorem V_main_arg16 (c : Dev nD) : V m c main_arg16 = m ((c : Thread nD τ).loc main_arg16) := by
  not_written
/-- No host operation before the region writes `main_arg17`. -/
theorem V_main_arg17 (c : Dev nD) : V m c main_arg17 = m ((c : Thread nD τ).loc main_arg17) := by
  not_written
/-- No host operation before the region writes `main_arg18`. -/
theorem V_main_arg18 (c : Dev nD) : V m c main_arg18 = m ((c : Thread nD τ).loc main_arg18) := by
  not_written
/-- No host operation before the region writes `main_arg19`. -/
theorem V_main_arg19 (c : Dev nD) : V m c main_arg19 = m ((c : Thread nD τ).loc main_arg19) := by
  not_written

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, for any proof data whose
    array is the region-entry contents and whose body leaves the block in place: at a point that does not
    fetch, the window's index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run that names every array -/

set_option maxHeartbeats 1200000 in
/-- In a final state that names every array of the pipeline, every argument array is as launched: an array a
    window stages as an input ends at its region-entry contents, an array no window stages is left alone by the
    region, and the region found each as launched. -/
theorem frame_post_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 4).trans (((dats 0 c).arrAt_in 4 rfl _).trans ((hA c 4).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩

/-- The frame statement from a run whose post names every array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => frame_post_of m dats hA r h c) h

end Cert.KernelIdeal.Entry

end
-- ==== Proof.BodyKernelIdeal.lean ====
/-
  The body of the one region of `KernelIdeal` at a grid point, and the run of the whole program, at any
  float instance.

  At a point the body reads its thirteen input blocks whole (the rows' features x, T0, T1, T2 and the
  previous cell state, the four stacked weight matrices, the stacked bias row and the three peephole
  rows), forms the four gates' pre-activations as one [2000,512] sum of four matrix products plus the
  bias, cuts it into the four gates' column bands, and stores the new cell state and the new hidden
  state, each covering its output block with one store. So after the body each output's staging buffer
  holds one pure function of the input blocks. With that as the proof data (inputs left in place, the
  region's invariant the scoped rest and the generator register, full shares, nothing owed) the launch
  theorem gives the run: it terminates without fault, every array of the pipeline ends at what the
  write-backs leave, every other buffer as the region found it.
-/
import proofs.«174544_j50483045597456_1_alg».proof.Proof.EntryKernelIdeal

set_option maxRecDepth 16384

noncomputable section

namespace Cert.KernelIdeal.Body

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole buffer -/

abbrev rRows : Rect S2000x128 := Rect.unit (s := S2000x128) ![0, 0] S2000x128.size inb_S2000x128_S2000x128_0_0
abbrev rMat : Rect S128x512 := Rect.unit (s := S128x512) ![0, 0] S128x512.size inb_S128x512_S128x512_0_0
abbrev rBias : Rect S1x512 := Rect.unit (s := S1x512) ![0, 0] S1x512.size inb_S1x512_S1x512_0_0
abbrev rPeep : Rect S1x128 := Rect.unit (s := S1x128) ![0, 0] S1x128.size inb_S1x128_S1x128_0_0

/-! ## What the body leaves in each output's buffer -/

/-- The new cell state of a row block, from the thirteen input blocks: the input and forget gates'
    bands with their peephole terms through the logistic function, the candidate band through tanh,
    f·c + i·g. -/
def cellBlk (x0 : Vec F S2000x128 .f32) (x1 : Vec F S2000x128 .f32) (x2 : Vec F S2000x128 .f32) (x3 : Vec F S2000x128 .f32) (x4 : Vec F S2000x128 .f32) (x5 : Vec F S128x512 .f32) (x6 : Vec F S128x512 .f32) (x7 : Vec F S128x512 .f32) (x8 : Vec F S128x512 .f32) (x9 : Vec F S1x512 .f32) (x10 : Vec F S1x128 .f32) (x11 : Vec F S1x128 .f32) (x12 : Vec F S1x128 .f32) : Vec F S2000x128 .f32 :=
  k0_pay1
    (k0_pay4 (View.ld x0 rRows) (View.ld x1 rRows) (View.ld x2 rRows) (View.ld x3 rRows) (View.ld x5 rMat) (View.ld x6 rMat) (View.ld x7 rMat) (View.ld x8 rMat) (View.ld x9 rBias))
    (k0_pay5 (View.ld x0 rRows) (View.ld x1 rRows) (View.ld x2 rRows) (View.ld x3 rRows) (View.ld x5 rMat) (View.ld x6 rMat) (View.ld x7 rMat) (View.ld x8 rMat) (View.ld x9 rBias))
    (k0_pay6 (View.ld x0 rRows) (View.ld x1 rRows) (View.ld x2 rRows) (View.ld x3 rRows) (View.ld x5 rMat) (View.ld x6 rMat) (View.ld x7 rMat) (View.ld x8 rMat) (View.ld x9 rBias))
    (View.ld x4 rRows) (View.ld x10 rPeep) (View.ld x11 rPeep)

/-- The new hidden state of a row block: the output gate's band with its peephole term on the NEW cell
    state through the logistic function, times tanh of the new cell state. -/
def hiddenBlk (x0 : Vec F S2000x128 .f32) (x1 : Vec F S2000x128 .f32) (x2 : Vec F S2000x128 .f32) (x3 : Vec F S2000x128 .f32) (x4 : Vec F S2000x128 .f32) (x5 : Vec F S128x512 .f32) (x6 : Vec F S128x512 .f32) (x7 : Vec F S128x512 .f32) (x8 : Vec F S128x512 .f32) (x9 : Vec F S1x512 .f32) (x10 : Vec F S1x128 .f32) (x11 : Vec F S1x128 .f32) (x12 : Vec F S1x128 .f32) : Vec F S2000x128 .f32 :=
  k0_pay2
    (k0_pay4 (View.ld x0 rRows) (View.ld x1 rRows) (View.ld x2 rRows) (View.ld x3 rRows) (View.ld x5 rMat) (View.ld x6 rMat) (View.ld x7 rMat) (View.ld x8 rMat) (View.ld x9 rBias))
    (k0_pay5 (View.ld x0 rRows) (View.ld x1 rRows) (View.ld x2 rRows) (View.ld x3 rRows) (View.ld x5 rMat) (View.ld x6 rMat) (View.ld x7 rMat) (View.ld x8 rMat) (View.ld x9 rBias))
    (k0_pay6 (View.ld x0 rRows) (View.ld x1 rRows) (View.ld x2 rRows) (View.ld x3 rRows) (View.ld x5 rMat) (View.ld x6 rMat) (View.ld x7 rMat) (View.ld x8 rMat) (View.ld x9 rBias))
    (k0_pay7 (View.ld x0 rRows) (View.ld x1 rRows) (View.ld x2 rRows) (View.ld x3 rRows) (View.ld x5 rMat) (View.ld x6 rMat) (View.ld x7 rMat) (View.ld x8 rMat) (View.ld x9 rBias))
    (View.ld x4 rRows) (View.ld x10 rPeep) (View.ld x11 rPeep) (View.ld x12 rPeep)

/-- Window 13's buffer (the hidden state's block) after the body: its one store, over the whole buffer. -/
def out0_13 (x0 : Vec F S2000x128 .f32) (x1 : Vec F S2000x128 .f32) (x2 : Vec F S2000x128 .f32) (x3 : Vec F S2000x128 .f32) (x4 : Vec F S2000x128 .f32) (x5 : Vec F S128x512 .f32) (x6 : Vec F S128x512 .f32) (x7 : Vec F S128x512 .f32) (x8 : Vec F S128x512 .f32) (x9 : Vec F S1x512 .f32) (x10 : Vec F S1x128 .f32) (x11 : Vec F S1x128 .f32) (x12 : Vec F S1x128 .f32) : Vec F S2000x128 .f32 :=
  View.canon [⟨rRows, hiddenBlk x0 x1 x2 x3 x4 x5 x6 x7 x8 x9 x10 x11 x12⟩]

/-- Window 14's buffer (the cell state's block) after the body: its one store, over the whole buffer. -/
def out0_14 (x0 : Vec F S2000x128 .f32) (x1 : Vec F S2000x128 .f32) (x2 : Vec F S2000x128 .f32) (x3 : Vec F S2000x128 .f32) (x4 : Vec F S2000x128 .f32) (x5 : Vec F S128x512 .f32) (x6 : Vec F S128x512 .f32) (x7 : Vec F S128x512 .f32) (x8 : Vec F S128x512 .f32) (x9 : Vec F S1x512 .f32) (x10 : Vec F S1x128 .f32) (x11 : Vec F S1x128 .f32) (x12 : Vec F S1x128 .f32) : Vec F S2000x128 .f32 :=
  View.canon [⟨rRows, cellBlk x0 x1 x2 x3 x4 x5 x6 x7 x8 x9 x10 x11 x12⟩]

/-- One store through the whole-buffer rectangle covers the buffer. -/
theorem cover0_13 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y
theorem cover0_14 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 4000000 in
/-- The body on whole staging memrefs, the inputs' at contents `xW` and the outputs' at anything, runs to
    the continuation with the inputs' as they were and each output's at its function of the inputs'. (The
    body also loads both output buffers before storing into them; the loaded values are not used.) -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S1x512 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S2000x128 .f32) (harg14 : arg14.IsWhole) (arg15 : Memref sig .tc .vmem S2000x128 .f32) (harg15 : arg15.IsWhole)
    (x0 : Vec F S2000x128 .f32) (x1 : Vec F S2000x128 .f32) (x2 : Vec F S2000x128 .f32) (x3 : Vec F S2000x128 .f32) (x4 : Vec F S2000x128 .f32) (x5 : Vec F S128x512 .f32) (x6 : Vec F S128x512 .f32) (x7 : Vec F S128x512 .f32) (x8 : Vec F S128x512 .f32) (x9 : Vec F S1x512 .f32) (x10 : Vec F S1x128 .f32) (x11 : Vec F S1x128 .f32) (x12 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12)) -∗ K ⟨⟩))
      ⊢ wp frame (wpE (defs₀ (F := F)) Variants.none c none) E (cc0__gclstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__gclstm_kernel_eq_skeleton]; unfold cc0__gclstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (cover0_13 _)
  iexists _; isplitr
  swap; · iexact H14
  ipureintro
  try dsimp only
  exact View.read_writes_eq_canon _ _ _ (cover0_14 _)

/-! ## The pipeline's proof data -/

/-- The proof data of the pipeline on core `c`: the arrays as the region finds them; after the body at
    point `t` each input's buffer at its block and each output's at its function of the input blocks;
    the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' memrefs hold their blocks, so the triple applies; the invariant and
    the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without fault,
    every array of the pipeline ends at what the write-backs leave of the proof data, and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

end Cert.KernelIdeal.Body

end
-- ==== Proof.CellSpec.lean ====
/-
  The mathematics of the graph-convolutional LSTM cell, free of any program.

  A gate's pre-activation at a node r and channel j is a sum of five terms: the input features' product
  with the gate's input weights, the three Chebyshev terms' products (T0 = h, T1 = L·h, T2 = 2·L·T1 − h,
  L the normalized graph operator) with the gate's three convolution matrices, and the gate's bias.
  One program groups the five terms from the left, (((xw + t0) + t1) + t2) + b; the other groups the
  four graph terms first, xw + (((t0 + t1) + t2) + b). Addition on the extended reals is associative
  (whatever is infinite), so the two are equal with no finiteness assumption.

  The cell: i = σ(gi + wi·c), f = σ(gf + wf·c), g = tanh(gc), c' = f·c + i·g,
  o = σ(go + wo·c'), h' = o·tanh(c'), with σ x = 1/(1 + e^(−x)).
-/
import Idealize.ShloMosaic.PureOps.Ideal
import Idealize.ShloMosaic.Lib.ValueIdx

noncomputable section

namespace Cert.CellSpec

open Idealize.ShloMosaic Idealize.ShloMosaic.ValueIdx

/-- A gate's five terms, the four graph-side terms grouped first. -/
def gateRight (xw t0 t1 t2 b : EReal) : EReal := xw + (((t0 + t1) + t2) + b)

/-- The same five terms grouped from the left. -/
def gateLeft (xw t0 t1 t2 b : EReal) : EReal := (((xw + t0) + t1) + t2) + b

/-- Associativity alone: no term need be finite. -/
theorem gateLeft_eq (xw t0 t1 t2 b : EReal) : gateLeft xw t0 t1 t2 b = gateRight xw t0 t1 t2 b := by
  unfold gateLeft gateRight
  simp only [add_assoc]

/-- The new cell state from the three gates' pre-activations, the old cell state and the two peephole weights. -/
def cellS (gi gf gc c wi wf : EReal) : EReal :=
  Ideal.logistic (gf + wf * c) * c + Ideal.logistic (gi + wi * c) * Ideal.tanh gc

/-- The new hidden state from the output gate's pre-activation, the NEW cell state and its peephole weight. -/
def hiddenS (go c' wo : EReal) : EReal :=
  Ideal.logistic (go + wo * c') * Ideal.tanh c'

/-- Column `q` of gate `g`'s band, as a column of the four gates' arrays laid side by side. -/
def col (g : ℕ) (hg : g < 4) (q : Fin 128) : Fin 512 := ⟨128 * g + q.val, by have := q.isLt; omega⟩

/-! ## Whole arrays: 50000 nodes, 128 channels -/

abbrev SN : Shape := ⟨2, ![50000, 128]⟩
abbrev SW : Shape := ⟨2, ![128, 128]⟩
abbrev ST : Shape := ⟨3, ![3, 128, 128]⟩
abbrev SB : Shape := ⟨1, ![128]⟩

/-- A gate's pre-activation at node `r`, channel `j`. -/
def pre (x T0 T1 T2 : SN.Idx → EReal) (W : SW.Idx → EReal) (θ : ST.Idx → EReal) (b : SB.Idx → EReal)
    (r : Fin 50000) (j : Fin 128) : EReal :=
  gateRight (∑ k : Fin 128, x (ix2 r k) * W (ix2 k j))
    (∑ k : Fin 128, T0 (ix2 r k) * θ (ix3 (0 : Fin 3) k j))
    (∑ k : Fin 128, T1 (ix2 r k) * θ (ix3 (1 : Fin 3) k j))
    (∑ k : Fin 128, T2 (ix2 r k) * θ (ix3 (2 : Fin 3) k j))
    (b (ix1 j))

/-- The new cell state, as one function of the arrays. -/
def cellG (x T0 T1 T2 c : SN.Idx → EReal) (Wi Wf Wc : SW.Idx → EReal) (θi θf θc : ST.Idx → EReal)
    (bi bf bc wi wf : SB.Idx → EReal) (r : Fin 50000) (j : Fin 128) : EReal :=
  cellS (pre x T0 T1 T2 Wi θi bi r j) (pre x T0 T1 T2 Wf θf bf r j) (pre x T0 T1 T2 Wc θc bc r j)
    (c (ix2 r j)) (wi (ix1 j)) (wf (ix1 j))

/-- The new hidden state, as one function of the arrays. -/
def hiddenG (x T0 T1 T2 c : SN.Idx → EReal) (Wi Wf Wc Wo : SW.Idx → EReal) (θi θf θc θo : ST.Idx → EReal)
    (bi bf bc bo wi wf wo : SB.Idx → EReal) (r : Fin 50000) (j : Fin 128) : EReal :=
  hiddenS (pre x T0 T1 T2 Wo θo bo r j) (cellG x T0 T1 T2 c Wi Wf Wc θi θf θc bi bf bc wi wf r j) (wo (ix1 j))

/-! ## From a row block to the whole arrays

A grid point holds rows r = 2000·t + p of the node arrays as rows p of its blocks, the stacked weight
matrices whole, the stacked bias row and the peephole rows. The relations between a block's entries and the
arrays' are taken as hypotheses here; nothing of a program is needed to join the two forms. -/

abbrev SBlk : Shape := ⟨2, ![2000, 128]⟩
abbrev SStk : Shape := ⟨2, ![128, 512]⟩
abbrev SBiasRow : Shape := ⟨2, ![1, 512]⟩
abbrev SPeepRow : Shape := ⟨2, ![1, 128]⟩

/-- The left-grouped gate sum at row `p` of a block and column `b` of the stacked weights. -/
def blockGate (v0 v2 v4 v7 : SBlk.Idx → EReal) (v10 v13 v16 v19 : SStk.Idx → EReal) (v29 : SBiasRow.Idx → EReal)
    (p : Fin 2000) (b : Fin 512) : EReal :=
  gateLeft (∑ k : Fin 128, v0 (ix2 p k) * v10 (ix2 k b)) (∑ k : Fin 128, v2 (ix2 p k) * v13 (ix2 k b))
    (∑ k : Fin 128, v4 (ix2 p k) * v16 (ix2 k b)) (∑ k : Fin 128, v7 (ix2 p k) * v19 (ix2 k b)) (v29 (ix2 (0 : Fin 1) b))

/-- One gate: the block form at stacked column `cq` is the array form at channel `q`. -/
theorem gate_bridge (x0 x1 x2 x3 : SBlk.Idx → EReal) (x5 x6 x7 x8 : SStk.Idx → EReal) (x9 : SBiasRow.Idx → EReal)
    (X T0 T1 T2 : SN.Idx → EReal) (W : SW.Idx → EReal) (θ : ST.Idx → EReal) (b : SB.Idx → EReal)
    (p : Fin 2000) (r : Fin 50000) (q : Fin 128) (cq : Fin 512)
    (hx : ∀ k, x0 (ix2 p k) = X (ix2 r k)) (h0 : ∀ k, x1 (ix2 p k) = T0 (ix2 r k))
    (h1 : ∀ k, x2 (ix2 p k) = T1 (ix2 r k)) (h2 : ∀ k, x3 (ix2 p k) = T2 (ix2 r k))
    (hW : ∀ k, x5 (ix2 k cq) = W (ix2 k q)) (hθ0 : ∀ k, x6 (ix2 k cq) = θ (ix3 (0 : Fin 3) k q))
    (hθ1 : ∀ k, x7 (ix2 k cq) = θ (ix3 (1 : Fin 3) k q)) (hθ2 : ∀ k, x8 (ix2 k cq) = θ (ix3 (2 : Fin 3) k q))
    (hb : x9 (ix2 (0 : Fin 1) cq) = b (ix1 q)) :
    blockGate x0 x1 x2 x3 x5 x6 x7 x8 x9 p cq = pre X T0 T1 T2 W θ b r q := by
  unfold blockGate pre
  rw [gateLeft_eq]
  simp only [hx, h0, h1, h2, hW, hθ0, hθ1, hθ2, hb]

section Bridge
variable (x0 x1 x2 x3 x4 : SBlk.Idx → EReal) (x5 x6 x7 x8 : SStk.Idx → EReal) (x9 : SBiasRow.Idx → EReal)
  (x10 x11 x12 : SPeepRow.Idx → EReal)
  (X T0 T1 T2 C : SN.Idx → EReal) (Wi Wf Wc Wo : SW.Idx → EReal) (θi θf θc θo : ST.Idx → EReal)
  (bi bf bc bo wi wf wo : SB.Idx → EReal)
  (p : Fin 2000) (r : Fin 50000) (q : Fin 128)

/-- The new cell state: block form to array form. -/
theorem cell_bridge
    (hx : ∀ k, x0 (ix2 p k) = X (ix2 r k)) (h0 : ∀ k, x1 (ix2 p k) = T0 (ix2 r k))
    (h1 : ∀ k, x2 (ix2 p k) = T1 (ix2 r k)) (h2 : ∀ k, x3 (ix2 p k) = T2 (ix2 r k))
    (hc : x4 (ix2 p q) = C (ix2 r q))
    (hW0 : ∀ k, x5 (ix2 k (col 0 (by decide) q)) = Wi (ix2 k q))
    (hθ0_0 : ∀ k, x6 (ix2 k (col 0 (by decide) q)) = θi (ix3 (0 : Fin 3) k q))
    (hθ1_0 : ∀ k, x7 (ix2 k (col 0 (by decide) q)) = θi (ix3 (1 : Fin 3) k q))
    (hθ2_0 : ∀ k, x8 (ix2 k (col 0 (by decide) q)) = θi (ix3 (2 : Fin 3) k q))
    (hb0 : x9 (ix2 (0 : Fin 1) (col 0 (by decide) q)) = bi (ix1 q))
    (hW1 : ∀ k, x5 (ix2 k (col 1 (by decide) q)) = Wf (ix2 k q))
    (hθ0_1 : ∀ k, x6 (ix2 k (col 1 (by decide) q)) = θf (ix3 (0 : Fin 3) k q))
    (hθ1_1 : ∀ k, x7 (ix2 k (col 1 (by decide) q)) = θf (ix3 (1 : Fin 3) k q))
    (hθ2_1 : ∀ k, x8 (ix2 k (col 1 (by decide) q)) = θf (ix3 (2 : Fin 3) k q))
    (hb1 : x9 (ix2 (0 : Fin 1) (col 1 (by decide) q)) = bf (ix1 q))
    (hW2 : ∀ k, x5 (ix2 k (col 2 (by decide) q)) = Wc (ix2 k q))
    (hθ0_2 : ∀ k, x6 (ix2 k (col 2 (by decide) q)) = θc (ix3 (0 : Fin 3) k q))
    (hθ1_2 : ∀ k, x7 (ix2 k (col 2 (by decide) q)) = θc (ix3 (1 : Fin 3) k q))
    (hθ2_2 : ∀ k, x8 (ix2 k (col 2 (by decide) q)) = θc (ix3 (2 : Fin 3) k q))
    (hb2 : x9 (ix2 (0 : Fin 1) (col 2 (by decide) q)) = bc (ix1 q))
    (hwi : x10 (ix2 (0 : Fin 1) q) = wi (ix1 q)) (hwf : x11 (ix2 (0 : Fin 1) q) = wf (ix1 q)) :
    cellS (blockGate x0 x1 x2 x3 x5 x6 x7 x8 x9 p (col 0 (by decide) q)) (blockGate x0 x1 x2 x3 x5 x6 x7 x8 x9 p (col 1 (by decide) q))
        (blockGate x0 x1 x2 x3 x5 x6 x7 x8 x9 p (col 2 (by decide) q)) (x4 (ix2 p q)) (x10 (ix2 (0 : Fin 1) q)) (x11 (ix2 (0 : Fin 1) q))
      = cellG X T0 T1 T2 C Wi Wf Wc θi θf θc bi bf bc wi wf r q := by
  unfold cellG
  rw [(gate_bridge x0 x1 x2 x3 x5 x6 x7 x8 x9 X T0 T1 T2 Wi θi bi p r q (col 0 (by decide) q) hx h0 h1 h2 hW0 hθ0_0 hθ1_0 hθ2_0 hb0),
    (gate_bridge x0 x1 x2 x3 x5 x6 x7 x8 x9 X T0 T1 T2 Wf θf bf p r q (col 1 (by decide) q) hx h0 h1 h2 hW1 hθ0_1 hθ1_1 hθ2_1 hb1),
    (gate_bridge x0 x1 x2 x3 x5 x6 x7 x8 x9 X T0 T1 T2 Wc θc bc p r q (col 2 (by decide) q) hx h0 h1 h2 hW2 hθ0_2 hθ1_2 hθ2_2 hb2), hc, hwi, hwf]

/-- The new hidden state: block form to array form. -/
theorem hidden_bridge (c' : EReal)
    (hx : ∀ k, x0 (ix2 p k) = X (ix2 r k)) (h0 : ∀ k, x1 (ix2 p k) = T0 (ix2 r k))
    (h1 : ∀ k, x2 (ix2 p k) = T1 (ix2 r k)) (h2 : ∀ k, x3 (ix2 p k) = T2 (ix2 r k))
    (hW3 : ∀ k, x5 (ix2 k (col 3 (by decide) q)) = Wo (ix2 k q))
    (hθ0_3 : ∀ k, x6 (ix2 k (col 3 (by decide) q)) = θo (ix3 (0 : Fin 3) k q))
    (hθ1_3 : ∀ k, x7 (ix2 k (col 3 (by decide) q)) = θo (ix3 (1 : Fin 3) k q))
    (hθ2_3 : ∀ k, x8 (ix2 k (col 3 (by decide) q)) = θo (ix3 (2 : Fin 3) k q))
    (hb3 : x9 (ix2 (0 : Fin 1) (col 3 (by decide) q)) = bo (ix1 q))
    (hwo : x12 (ix2 (0 : Fin 1) q) = wo (ix1 q))
    (hc' : c' = cellG X T0 T1 T2 C Wi Wf Wc θi θf θc bi bf bc wi wf r q) :
    hiddenS (blockGate x0 x1 x2 x3 x5 x6 x7 x8 x9 p (col 3 (by decide) q)) c' (x12 (ix2 (0 : Fin 1) q))
      = hiddenG X T0 T1 T2 C Wi Wf Wc Wo θi θf θc θo bi bf bc bo wi wf wo r q := by
  unfold hiddenG
  rw [(gate_bridge x0 x1 x2 x3 x5 x6 x7 x8 x9 X T0 T1 T2 Wo θo bo p r q (col 3 (by decide) q) hx h0 h1 h2 hW3 hθ0_3 hθ1_3 hθ2_3 hb3), hwo, hc']

end Bridge

end Cert.CellSpec

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.PayKernelIdeal.lean ====
/-
  The body's arithmetic at a row `p` of a block and a channel `q`, on the extended reals.

  The [2000,512] array of pre-activations is four matrix products into zero accumulators (a change of
  float format is the identity here) summed from the left, plus the bias row broadcast down the rows; at
  (p, b) that is the left-grouped gate sum of four sums over the contracted coordinate and the bias at b.
  Gate g's band is columns 128·g … 128·g + 127 of it. The new cell state and the new hidden state are the
  cell's scalar functions of the three (four) bands, the old cell state and the peephole rows.
-/
import proofs.«174544_j50483045597456_1_alg».proof.Proof.Gen.KernelIdeal.Skeleton
import proofs.«174544_j50483045597456_1_alg».proof.Proof.CellSpec
import proofs.«174544_j50483045597456_1_alg».proof.Proof.LibColumnBlocks
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.CellSpec
open Idealize.ShloMosaic Idealize.ShloMosaic.ValueIdx

/-! ## One product at (p, b) -/

theorem dot_l0 (j : S2000x512.Idx) (q : dot_S2000x128_S128x512_S2000x512_1_0_0_1_n_n.contr.Idx) : (dot_S2000x128_S128x512_S2000x512_1_0_0_1_n_n.lhsIdx j q 0).val = (j 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl

theorem dot_r1 (j : S2000x512.Idx) (q : dot_S2000x128_S128x512_S2000x512_1_0_0_1_n_n.contr.Idx) : (dot_S2000x128_S128x512_S2000x512_1_0_0_1_n_n.rhsIdx j q 1).val = (j 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- A product of a [2000,128] block with a [128,512] matrix into a zero accumulator, at (p, b): the sum over
    the 128 contracted coordinates. -/
theorem prod_apply (l : FVec Ideal S2000x128 .bf16) (r : FVec Ideal S128x512 .bf16) (p : Fin 2000) (b : Fin 512) :
    matmul dot_S2000x128_S128x512_S2000x512_1_0_0_1_n_n none l r (constant (F := Ideal) S2000x512 .f32 0x00000000#32) (ix2 p b)
      = ∑ k : Fin 128, l (ix2 p k) * r (ix2 k b) :=
  Cert.LibColumnBlocks.matmul_zero_apply dot_S2000x128_S128x512_S2000x512_1_0_0_1_n_n rfl rfl rfl rfl dot_l0 dot_r1 l r p b none

/-! ## The pre-activations -/

theorem gates_apply (v0 v2 v4 v7 : Vec Ideal S2000x128 .f32) (v10 v13 v16 v19 : Vec Ideal S128x512 .f32) (v29 : Vec Ideal S1x512 .f32)
    (p : Fin 2000) (b : Fin 512) :
    k0_pay3 (F := Ideal) v0 v2 v4 v7 v10 v13 v16 v19 v29 (ix2 p b) = blockGate v0 v2 v4 v7 v10 v13 v16 v19 v29 p b := by
  unfold k0_pay3 blockGate gateLeft
  simp only [shapeCast_self, addf_apply, prod_apply, broadcastTo_1b_ab_apply, truncf_apply]

section Bands
variable (v0 v2 v4 v7 : Vec Ideal S2000x128 .f32) (v10 v13 v16 v19 : Vec Ideal S128x512 .f32) (v29 : Vec Ideal S1x512 .f32)
  (p : Fin 2000) (q : Fin 128)

theorem band0 : k0_pay4 (F := Ideal) v0 v2 v4 v7 v10 v13 v16 v19 v29 (ix2 p q) = blockGate v0 v2 v4 v7 v10 v13 v16 v19 v29 p (col 0 (by decide) q) := by
  unfold k0_pay4
  exact (slice2_axis1_apply 0 _ _ p q (col 0 (by decide) q) (by show 128 * 0 + q.val = 0 + q.val; omega)).trans (gates_apply ..)

theorem band1 : k0_pay5 (F := Ideal) v0 v2 v4 v7 v10 v13 v16 v19 v29 (ix2 p q) = blockGate v0 v2 v4 v7 v10 v13 v16 v19 v29 p (col 1 (by decide) q) := by
  unfold k0_pay5
  exact (slice2_axis1_apply 128 _ _ p q (col 1 (by decide) q) (by show 128 * 1 + q.val = 128 + q.val; omega)).trans (gates_apply ..)

theorem band2 : k0_pay6 (F := Ideal) v0 v2 v4 v7 v10 v13 v16 v19 v29 (ix2 p q) = blockGate v0 v2 v4 v7 v10 v13 v16 v19 v29 p (col 2 (by decide) q) := by
  unfold k0_pay6
  exact (slice2_axis1_apply 256 _ _ p q (col 2 (by decide) q) (by show 128 * 2 + q.val = 256 + q.val; omega)).trans (gates_apply ..)

theorem band3 : k0_pay7 (F := Ideal) v0 v2 v4 v7 v10 v13 v16 v19 v29 (ix2 p q) = blockGate v0 v2 v4 v7 v10 v13 v16 v19 v29 p (col 3 (by decide) q) := by
  unfold k0_pay7
  exact (slice2_axis1_apply 384 _ _ p q (col 3 (by decide) q) (by show 128 * 3 + q.val = 384 + q.val; omega)).trans (gates_apply ..)

end Bands

/-! ## The cell -/

/-- The new cell state of a block at (p, q), over any three band arrays. -/
theorem cell_apply (v33 v34 v35 : FVec Ideal S2000x128 .f32) (v37 : Vec Ideal S2000x128 .f32) (v38 v40 : Vec Ideal S1x128 .f32)
    (p : Fin 2000) (q : Fin 128) :
    k0_pay1 (F := Ideal) v33 v34 v35 v37 v38 v40 (ix2 p q)
      = cellS (v33 (ix2 p q)) (v34 (ix2 p q)) (v35 (ix2 p q)) (v37 (ix2 p q)) (v38 (ix2 (0 : Fin 1) q)) (v40 (ix2 (0 : Fin 1) q)) := by
  unfold k0_pay1 cellS
  simp only [shapeCast_self]
  show FloatOps.logistic (v34 (ix2 p q) + broadcastTo S2000x128 v40 broadcasts_S1x128_S2000x128 (ix2 p q) * v37 (ix2 p q)) * v37 (ix2 p q)
      + FloatOps.logistic (v33 (ix2 p q) + broadcastTo S2000x128 v38 broadcasts_S1x128_S2000x128 (ix2 p q) * v37 (ix2 p q)) * FloatOps.tanh (v35 (ix2 p q)) = _
  rw [broadcastTo_1b_ab_apply, broadcastTo_1b_ab_apply]
  rfl

/-- The new hidden state of a block at (p, q). -/
theorem hidden_apply (v33 v34 v35 v36 : FVec Ideal S2000x128 .f32) (v37 : Vec Ideal S2000x128 .f32) (v38 v40 v42 : Vec Ideal S1x128 .f32)
    (p : Fin 2000) (q : Fin 128) :
    k0_pay2 (F := Ideal) v33 v34 v35 v36 v37 v38 v40 v42 (ix2 p q)
      = hiddenS (v36 (ix2 p q)) (k0_pay1 (F := Ideal) v33 v34 v35 v37 v38 v40 (ix2 p q)) (v42 (ix2 (0 : Fin 1) q)) := by
  unfold k0_pay2 hiddenS
  simp only [shapeCast_self]
  show FloatOps.logistic (v36 (ix2 p q) + broadcastTo S2000x128 v42 broadcasts_S1x128_S2000x128 (ix2 p q) * k0_pay1 (F := Ideal) v33 v34 v35 v37 v38 v40 (ix2 p q))
      * FloatOps.tanh (k0_pay1 (F := Ideal) v33 v34 v35 v37 v38 v40 (ix2 p q)) = _
  rw [broadcastTo_1b_ab_apply]
  rfl

/-! ## A point's two results over its thirteen blocks -/

section Point
variable (x0 x1 x2 x3 x4 : Vec Ideal S2000x128 .f32) (x5 x6 x7 x8 : Vec Ideal S128x512 .f32) (x9 : Vec Ideal S1x512 .f32)
  (x10 x11 x12 : Vec Ideal S1x128 .f32) (p : Fin 2000) (q : Fin 128)

/-- The new cell state of the point at (p, q). -/
theorem point_cell :
    k0_pay1 (F := Ideal) (k0_pay4 x0 x1 x2 x3 x5 x6 x7 x8 x9) (k0_pay5 x0 x1 x2 x3 x5 x6 x7 x8 x9) (k0_pay6 x0 x1 x2 x3 x5 x6 x7 x8 x9) x4 x10 x11 (ix2 p q)
      = cellS (blockGate x0 x1 x2 x3 x5 x6 x7 x8 x9 p (col 0 (by decide) q)) (blockGate x0 x1 x2 x3 x5 x6 x7 x8 x9 p (col 1 (by decide) q))
          (blockGate x0 x1 x2 x3 x5 x6 x7 x8 x9 p (col 2 (by decide) q)) (x4 (ix2 p q)) (x10 (ix2 (0 : Fin 1) q)) (x11 (ix2 (0 : Fin 1) q)) := by
  rw [cell_apply, band0, band1, band2]

/-- The new hidden state of the point at (p, q), over the new cell state there. -/
theorem point_hidden :
    k0_pay2 (F := Ideal) (k0_pay4 x0 x1 x2 x3 x5 x6 x7 x8 x9) (k0_pay5 x0 x1 x2 x3 x5 x6 x7 x8 x9) (k0_pay6 x0 x1 x2 x3 x5 x6 x7 x8 x9) (k0_pay7 x0 x1 x2 x3 x5 x6 x7 x8 x9) x4 x10 x11 x12 (ix2 p q)
      = hiddenS (blockGate x0 x1 x2 x3 x5 x6 x7 x8 x9 p (col 3 (by decide) q))
          (k0_pay1 (F := Ideal) (k0_pay4 x0 x1 x2 x3 x5 x6 x7 x8 x9) (k0_pay5 x0 x1 x2 x3 x5 x6 x7 x8 x9) (k0_pay6 x0 x1 x2 x3 x5 x6 x7 x8 x9) x4 x10 x11 (ix2 p q))
          (x12 (ix2 (0 : Fin 1) q)) := by
  rw [hidden_apply, band3]

end Point

end Cert.KernelIdeal.Pay

end
-- ==== Proof.ArraysKernelIdeal.lean ====
/-
  The arrays the host operations build for the region, read at an index (on the extended reals).

  The four gates' input weights are laid side by side into one [128,512] matrix, and so is layer d of the
  four gates' convolution weights, for d = 0, 1, 2; the four biases are joined end to end and recast as one
  [1,512] row; each peephole vector is recast as a [1,128] row. Column 128·g + j of a stacked matrix is
  column j of gate g's matrix.
-/
import proofs.«174544_j50483045597456_1_alg».proof.Proof.EntryKernelIdeal
import proofs.«174544_j50483045597456_1_alg».proof.Proof.CellSpec
import proofs.«174544_j50483045597456_1_alg».proof.Proof.LibColumnBlocks
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Arrays

open Cert.KernelIdeal Cert.KernelIdeal.Gen Cert.KernelIdeal.Entry Cert.CellSpec
open Idealize.ShloMosaic.TcCoe
open Idealize.ShloMosaic Idealize.ShloMosaic.ValueIdx Idealize.ShloMosaic.StableHlo

variable (m : (ℓ : Loc nD τ sig) → Buf (Elt Ideal) ℓ)

/-! ## The arrays as terms of the arguments -/

set_option maxHeartbeats 2000000 in
theorem Wall_eq (c : Dev nD) : (V m c main_v59 : S128x512.Idx → EReal)
    = concatenate S128x512 1 [⟨S128x128, (m ((c : Thread nD τ).loc main_arg4))⟩, ⟨S128x128, (m ((c : Thread nD τ).loc main_arg5))⟩, ⟨S128x128, (m ((c : Thread nD τ).loc main_arg6))⟩, ⟨S128x128, (m ((c : Thread nD τ).loc main_arg7))⟩] concatenates_S128x128_S128x128_S128x128_S128x128_S128x512_d1 := by
  dsimp only [V]
  simp only [hostOps0, hostOps0_1, hostOps0_2, List.flatten_cons, List.flatten_nil, List.append_nil, List.cons_append, List.nil_append]
  after_results_simp <;> rfl

set_option maxHeartbeats 2000000 in
theorem th0_eq (c : Dev nD) : (V m c main_v68 : S128x512.Idx → EReal)
    = concatenate S128x512 1 [⟨S128x128, (shapeCast S128x128 (extractStridedSlice S1x128x128 ![0, 0, 0] (m ((c : Thread nD τ).loc main_arg8)) slices_S3x128x128_S1x128x128_0_0_0) shapeCasts_S1x128x128_S128x128)⟩, ⟨S128x128, (shapeCast S128x128 (extractStridedSlice S1x128x128 ![0, 0, 0] (m ((c : Thread nD τ).loc main_arg9)) slices_S3x128x128_S1x128x128_0_0_0) shapeCasts_S1x128x128_S128x128)⟩, ⟨S128x128, (shapeCast S128x128 (extractStridedSlice S1x128x128 ![0, 0, 0] (m ((c : Thread nD τ).loc main_arg10)) slices_S3x128x128_S1x128x128_0_0_0) shapeCasts_S1x128x128_S128x128)⟩, ⟨S128x128, (shapeCast S128x128 (extractStridedSlice S1x128x128 ![0, 0, 0] (m ((c : Thread nD τ).loc main_arg11)) slices_S3x128x128_S1x128x128_0_0_0) shapeCasts_S1x128x128_S128x128)⟩] concatenates_S128x128_S128x128_S128x128_S128x128_S128x512_d1 := by
  dsimp only [V]
  simp only [hostOps0, hostOps0_1, hostOps0_2, List.flatten_cons, List.flatten_nil, List.append_nil, List.cons_append, List.nil_append]
  after_results_simp <;> rfl

set_option maxHeartbeats 2000000 in
theorem th1_eq (c : Dev nD) : (V m c main_v77 : S128x512.Idx → EReal)
    = concatenate S128x512 1 [⟨S128x128, (shapeCast S128x128 (extractStridedSlice S1x128x128 ![1, 0, 0] (m ((c : Thread nD τ).loc main_arg8)) slices_S3x128x128_S1x128x128_1_0_0) shapeCasts_S1x128x128_S128x128)⟩, ⟨S128x128, (shapeCast S128x128 (extractStridedSlice S1x128x128 ![1, 0, 0] (m ((c : Thread nD τ).loc main_arg9)) slices_S3x128x128_S1x128x128_1_0_0) shapeCasts_S1x128x128_S128x128)⟩, ⟨S128x128, (shapeCast S128x128 (extractStridedSlice S1x128x128 ![1, 0, 0] (m ((c : Thread nD τ).loc main_arg10)) slices_S3x128x128_S1x128x128_1_0_0) shapeCasts_S1x128x128_S128x128)⟩, ⟨S128x128, (shapeCast S128x128 (extractStridedSlice S1x128x128 ![1, 0, 0] (m ((c : Thread nD τ).loc main_arg11)) slices_S3x128x128_S1x128x128_1_0_0) shapeCasts_S1x128x128_S128x128)⟩] concatenates_S128x128_S128x128_S128x128_S128x128_S128x512_d1 := by
  dsimp only [V]
  simp only [hostOps0, hostOps0_1, hostOps0_2, List.flatten_cons, List.flatten_nil, List.append_nil, List.cons_append, List.nil_append]
  after_results_simp <;> rfl

set_option maxHeartbeats 2000000 in
theorem th2_eq (c : Dev nD) : (V m c main_v86 : S128x512.Idx → EReal)
    = concatenate S128x512 1 [⟨S128x128, (shapeCast S128x128 (extractStridedSlice S1x128x128 ![2, 0, 0] (m ((c : Thread nD τ).loc main_arg8)) slices_S3x128x128_S1x128x128_2_0_0) shapeCasts_S1x128x128_S128x128)⟩, ⟨S128x128, (shapeCast S128x128 (extractStridedSlice S1x128x128 ![2, 0, 0] (m ((c : Thread nD τ).loc main_arg9)) slices_S3x128x128_S1x128x128_2_0_0) shapeCasts_S1x128x128_S128x128)⟩, ⟨S128x128, (shapeCast S128x128 (extractStridedSlice S1x128x128 ![2, 0, 0] (m ((c : Thread nD τ).loc main_arg10)) slices_S3x128x128_S1x128x128_2_0_0) shapeCasts_S1x128x128_S128x128)⟩, ⟨S128x128, (shapeCast S128x128 (extractStridedSlice S1x128x128 ![2, 0, 0] (m ((c : Thread nD τ).loc main_arg11)) slices_S3x128x128_S1x128x128_2_0_0) shapeCasts_S1x128x128_S128x128)⟩] concatenates_S128x128_S128x128_S128x128_S128x128_S128x512_d1 := by
  dsimp only [V]
  simp only [hostOps0, hostOps0_1, hostOps0_2, List.flatten_cons, List.flatten_nil, List.append_nil, List.cons_append, List.nil_append]
  after_results_simp <;> rfl

set_option maxHeartbeats 2000000 in
theorem bias_eq (c : Dev nD) : (V m c main_v88 : S1x512.Idx → EReal)
    = broadcastInDim S1x512 ![1] bcast_S512_S1x512_1 (concatenate S512 0 [⟨S128, (m ((c : Thread nD τ).loc main_arg12))⟩, ⟨S128, (m ((c : Thread nD τ).loc main_arg13))⟩, ⟨S128, (m ((c : Thread nD τ).loc main_arg14))⟩, ⟨S128, (m ((c : Thread nD τ).loc main_arg15))⟩] concatenates_S128_S128_S128_S128_S512_d0) := by
  dsimp only [V]
  simp only [hostOps0, hostOps0_1, hostOps0_2, List.flatten_cons, List.flatten_nil, List.append_nil, List.cons_append, List.nil_append]
  after_results_simp <;> rfl

set_option maxHeartbeats 2000000 in
theorem peep16_eq (c : Dev nD) : (V m c main_v89 : S1x128.Idx → EReal) = broadcastInDim S1x128 ![1] bcast_S128_S1x128_1 (m ((c : Thread nD τ).loc main_arg16)) := by
  dsimp only [V]
  simp only [hostOps0, hostOps0_1, hostOps0_2, List.flatten_cons, List.flatten_nil, List.append_nil, List.cons_append, List.nil_append]
  after_results_simp <;> rfl

set_option maxHeartbeats 2000000 in
theorem peep17_eq (c : Dev nD) : (V m c main_v90 : S1x128.Idx → EReal) = broadcastInDim S1x128 ![1] bcast_S128_S1x128_1 (m ((c : Thread nD τ).loc main_arg17)) := by
  dsimp only [V]
  simp only [hostOps0, hostOps0_1, hostOps0_2, List.flatten_cons, List.flatten_nil, List.append_nil, List.cons_append, List.nil_append]
  after_results_simp <;> rfl

set_option maxHeartbeats 2000000 in
theorem peep18_eq (c : Dev nD) : (V m c main_v91 : S1x128.Idx → EReal) = broadcastInDim S1x128 ![1] bcast_S128_S1x128_1 (m ((c : Thread nD τ).loc main_arg18)) := by
  dsimp only [V]
  simp only [hostOps0, hostOps0_1, hostOps0_2, List.flatten_cons, List.flatten_nil, List.append_nil, List.cons_append, List.nil_append]
  after_results_simp <;> rfl

/-! ## Read at an index -/

/-- Layer `d` of a [3,128,128] array, sliced out and recast as [128,128], at (k, j). -/
theorem layer_apply (d : Fin 3) (x : S3x128x128.Idx → EReal) (h : S3x128x128.Slices ![d.val, 0, 0] S1x128x128) (k j : Fin 128) :
    shapeCast S128x128 (extractStridedSlice S1x128x128 ![d.val, 0, 0] x h) shapeCasts_S1x128x128_S128x128 (ix2 k j) = x (ix3 d k j) := by
  rw [shapeCast_1ab_ab_apply]
  exact extractStridedSlice_apply ![d.val, 0, 0] x h (ix3 (0 : Fin 1) k j) (ix3 d k j) (fun a => by
    match a with
    | ⟨0, _⟩ => show d.val = d.val + 0; rfl
    | ⟨1, _⟩ => show k.val = 0 + k.val; omega
    | ⟨2, _⟩ => show j.val = 0 + j.val; omega)

/-- A [128] vector recast as a [1,128] row, at (0, j). -/
theorem row_apply (x : S128.Idx → EReal) (j : Fin 128) :
    broadcastInDim S1x128 ![1] bcast_S128_S1x128_1 x (ix2 (0 : Fin 1) j) = x (ix1 j) :=
  broadcastInDim_apply _ bcast_S128_S1x128_1 x _ (ix1 j) (fun a => by
    match a with
    | ⟨0, _⟩ => show j.val = if (128 : Nat) = 1 then 0 else j.val; rw [if_neg (by decide)])

section Four
variable (c : Dev nD) (k j : Fin 128)

theorem Wall_0 : V m c main_v59 (ix2 k (col 0 (by decide) j)) = (m ((c : Thread nD τ).loc main_arg4)) (ix2 k j) := by
  have hj := j.isLt
  rw [Wall_eq]
  exact (Cert.LibColumnBlocks.cat4_0 _ _ _ _ concatenates_S128x128_S128x128_S128x128_S128x128_S128x512_d1 k (col 0 (by decide) j) (by show 128 * 0 + j.val < 128; omega)).trans
    (congrArg _ (congrArg (ix2 k) (Fin.ext (by show 128 * 0 + j.val = j.val; omega))))

theorem th0_0 : V m c main_v68 (ix2 k (col 0 (by decide) j)) = (m ((c : Thread nD τ).loc main_arg8)) (ix3 (0 : Fin 3) k j) := by
  have hj := j.isLt
  rw [th0_eq]
  refine ((Cert.LibColumnBlocks.cat4_0 _ _ _ _ concatenates_S128x128_S128x128_S128x128_S128x128_S128x512_d1 k (col 0 (by decide) j) (by show 128 * 0 + j.val < 128; omega)).trans
    (congrArg _ (congrArg (ix2 k) (Fin.ext (by show 128 * 0 + j.val = j.val; omega))))).trans ?_
  exact layer_apply (0 : Fin 3) _ slices_S3x128x128_S1x128x128_0_0_0 k j

theorem th1_0 : V m c main_v77 (ix2 k (col 0 (by decide) j)) = (m ((c : Thread nD τ).loc main_arg8)) (ix3 (1 : Fin 3) k j) := by
  have hj := j.isLt
  rw [th1_eq]
  refine ((Cert.LibColumnBlocks.cat4_0 _ _ _ _ concatenates_S128x128_S128x128_S128x128_S128x128_S128x512_d1 k (col 0 (by decide) j) (by show 128 * 0 + j.val < 128; omega)).trans
    (congrArg _ (congrArg (ix2 k) (Fin.ext (by show 128 * 0 + j.val = j.val; omega))))).trans ?_
  exact layer_apply (1 : Fin 3) _ slices_S3x128x128_S1x128x128_1_0_0 k j

theorem th2_0 : V m c main_v86 (ix2 k (col 0 (by decide) j)) = (m ((c : Thread nD τ).loc main_arg8)) (ix3 (2 : Fin 3) k j) := by
  have hj := j.isLt
  rw [th2_eq]
  refine ((Cert.LibColumnBlocks.cat4_0 _ _ _ _ concatenates_S128x128_S128x128_S128x128_S128x128_S128x512_d1 k (col 0 (by decide) j) (by show 128 * 0 + j.val < 128; omega)).trans
    (congrArg _ (congrArg (ix2 k) (Fin.ext (by show 128 * 0 + j.val = j.val; omega))))).trans ?_
  exact layer_apply (2 : Fin 3) _ slices_S3x128x128_S1x128x128_2_0_0 k j

theorem bias_0 : V m c main_v88 (ix2 (0 : Fin 1) (col 0 (by decide) j)) = (m ((c : Thread nD τ).loc main_arg12)) (ix1 j) := by
  have hj := j.isLt
  rw [bias_eq]
  refine (broadcastInDim_apply _ bcast_S512_S1x512_1 _ _ (ix1 (col 0 (by decide) j)) (fun a => by
    match a with
    | ⟨0, _⟩ => show (col 0 (by decide) j).val = if (512 : Nat) = 1 then 0 else (col 0 (by decide) j).val; rw [if_neg (by decide)])).trans ?_
  exact concatenate_apply_piece (t := S512) (0 : Fin 1) [⟨S128, (m ((c : Thread nD τ).loc main_arg12))⟩, ⟨S128, (m ((c : Thread nD τ).loc main_arg13))⟩, ⟨S128, (m ((c : Thread nD τ).loc main_arg14))⟩, ⟨S128, (m ((c : Thread nD τ).loc main_arg15))⟩] concatenates_S128_S128_S128_S128_S512_d0
    (ix1 (col 0 (by decide) j)) 0 (by simp) S128 (m ((c : Thread nD τ).loc main_arg12)) rfl rfl (0) rfl (ix1 j)
    (fun b hb => by
      match b with
      | ⟨0, _⟩ => exact absurd rfl hb)
    (by show 0 + j.val = 128 * 0 + j.val; omega)

theorem Wall_1 : V m c main_v59 (ix2 k (col 1 (by decide) j)) = (m ((c : Thread nD τ).loc main_arg5)) (ix2 k j) := by
  have hj := j.isLt
  rw [Wall_eq]
  exact (Cert.LibColumnBlocks.cat4_1 _ _ _ _ concatenates_S128x128_S128x128_S128x128_S128x128_S128x512_d1 k (col 1 (by decide) j) (by show 128 ≤ 128 * 1 + j.val; omega) (by show 128 * 1 + j.val - (128) < 128; omega)).trans
    (congrArg _ (congrArg (ix2 k) (Fin.ext (by show 128 * 1 + j.val - (128) = j.val; omega))))

theorem th0_1 : V m c main_v68 (ix2 k (col 1 (by decide) j)) = (m ((c : Thread nD τ).loc main_arg9)) (ix3 (0 : Fin 3) k j) := by
  have hj := j.isLt
  rw [th0_eq]
  refine ((Cert.LibColumnBlocks.cat4_1 _ _ _ _ concatenates_S128x128_S128x128_S128x128_S128x128_S128x512_d1 k (col 1 (by decide) j) (by show 128 ≤ 128 * 1 + j.val; omega) (by show 128 * 1 + j.val - (128) < 128; omega)).trans
    (congrArg _ (congrArg (ix2 k) (Fin.ext (by show 128 * 1 + j.val - (128) = j.val; omega))))).trans ?_
  exact layer_apply (0 : Fin 3) _ slices_S3x128x128_S1x128x128_0_0_0 k j

theorem th1_1 : V m c main_v77 (ix2 k (col 1 (by decide) j)) = (m ((c : Thread nD τ).loc main_arg9)) (ix3 (1 : Fin 3) k j) := by
  have hj := j.isLt
  rw [th1_eq]
  refine ((Cert.LibColumnBlocks.cat4_1 _ _ _ _ concatenates_S128x128_S128x128_S128x128_S128x128_S128x512_d1 k (col 1 (by decide) j) (by show 128 ≤ 128 * 1 + j.val; omega) (by show 128 * 1 + j.val - (128) < 128; omega)).trans
    (congrArg _ (congrArg (ix2 k) (Fin.ext (by show 128 * 1 + j.val - (128) = j.val; omega))))).trans ?_
  exact layer_apply (1 : Fin 3) _ slices_S3x128x128_S1x128x128_1_0_0 k j

theorem th2_1 : V m c main_v86 (ix2 k (col 1 (by decide) j)) = (m ((c : Thread nD τ).loc main_arg9)) (ix3 (2 : Fin 3) k j) := by
  have hj := j.isLt
  rw [th2_eq]
  refine ((Cert.LibColumnBlocks.cat4_1 _ _ _ _ concatenates_S128x128_S128x128_S128x128_S128x128_S128x512_d1 k (col 1 (by decide) j) (by show 128 ≤ 128 * 1 + j.val; omega) (by show 128 * 1 + j.val - (128) < 128; omega)).trans
    (congrArg _ (congrArg (ix2 k) (Fin.ext (by show 128 * 1 + j.val - (128) = j.val; omega))))).trans ?_
  exact layer_apply (2 : Fin 3) _ slices_S3x128x128_S1x128x128_2_0_0 k j

theorem bias_1 : V m c main_v88 (ix2 (0 : Fin 1) (col 1 (by decide) j)) = (m ((c : Thread nD τ).loc main_arg13)) (ix1 j) := by
  have hj := j.isLt
  rw [bias_eq]
  refine (broadcastInDim_apply _ bcast_S512_S1x512_1 _ _ (ix1 (col 1 (by decide) j)) (fun a => by
    match a with
    | ⟨0, _⟩ => show (col 1 (by decide) j).val = if (512 : Nat) = 1 then 0 else (col 1 (by decide) j).val; rw [if_neg (by decide)])).trans ?_
  exact concatenate_apply_piece (t := S512) (0 : Fin 1) [⟨S128, (m ((c : Thread nD τ).loc main_arg12))⟩, ⟨S128, (m ((c : Thread nD τ).loc main_arg13))⟩, ⟨S128, (m ((c : Thread nD τ).loc main_arg14))⟩, ⟨S128, (m ((c : Thread nD τ).loc main_arg15))⟩] concatenates_S128_S128_S128_S128_S512_d0
    (ix1 (col 1 (by decide) j)) 1 (by simp) S128 (m ((c : Thread nD τ).loc main_arg13)) rfl rfl (128) rfl (ix1 j)
    (fun b hb => by
      match b with
      | ⟨0, _⟩ => exact absurd rfl hb)
    (by show 128 + j.val = 128 * 1 + j.val; omega)

theorem Wall_2 : V m c main_v59 (ix2 k (col 2 (by decide) j)) = (m ((c : Thread nD τ).loc main_arg6)) (ix2 k j) := by
  have hj := j.isLt
  rw [Wall_eq]
  exact (Cert.LibColumnBlocks.cat4_2 _ _ _ _ concatenates_S128x128_S128x128_S128x128_S128x128_S128x512_d1 k (col 2 (by decide) j) (by show 128 + 128 ≤ 128 * 2 + j.val; omega) (by show 128 * 2 + j.val - (128 + 128) < 128; omega)).trans
    (congrArg _ (congrArg (ix2 k) (Fin.ext (by show 128 * 2 + j.val - (128 + 128) = j.val; omega))))

theorem th0_2 : V m c main_v68 (ix2 k (col 2 (by decide) j)) = (m ((c : Thread nD τ).loc main_arg10)) (ix3 (0 : Fin 3) k j) := by
  have hj := j.isLt
  rw [th0_eq]
  refine ((Cert.LibColumnBlocks.cat4_2 _ _ _ _ concatenates_S128x128_S128x128_S128x128_S128x128_S128x512_d1 k (col 2 (by decide) j) (by show 128 + 128 ≤ 128 * 2 + j.val; omega) (by show 128 * 2 + j.val - (128 + 128) < 128; omega)).trans
    (congrArg _ (congrArg (ix2 k) (Fin.ext (by show 128 * 2 + j.val - (128 + 128) = j.val; omega))))).trans ?_
  exact layer_apply (0 : Fin 3) _ slices_S3x128x128_S1x128x128_0_0_0 k j

theorem th1_2 : V m c main_v77 (ix2 k (col 2 (by decide) j)) = (m ((c : Thread nD τ).loc main_arg10)) (ix3 (1 : Fin 3) k j) := by
  have hj := j.isLt
  rw [th1_eq]
  refine ((Cert.LibColumnBlocks.cat4_2 _ _ _ _ concatenates_S128x128_S128x128_S128x128_S128x128_S128x512_d1 k (col 2 (by decide) j) (by show 128 + 128 ≤ 128 * 2 + j.val; omega) (by show 128 * 2 + j.val - (128 + 128) < 128; omega)).trans
    (congrArg _ (congrArg (ix2 k) (Fin.ext (by show 128 * 2 + j.val - (128 + 128) = j.val; omega))))).trans ?_
  exact layer_apply (1 : Fin 3) _ slices_S3x128x128_S1x128x128_1_0_0 k j

theorem th2_2 : V m c main_v86 (ix2 k (col 2 (by decide) j)) = (m ((c : Thread nD τ).loc main_arg10)) (ix3 (2 : Fin 3) k j) := by
  have hj := j.isLt
  rw [th2_eq]
  refine ((Cert.LibColumnBlocks.cat4_2 _ _ _ _ concatenates_S128x128_S128x128_S128x128_S128x128_S128x512_d1 k (col 2 (by decide) j) (by show 128 + 128 ≤ 128 * 2 + j.val; omega) (by show 128 * 2 + j.val - (128 + 128) < 128; omega)).trans
    (congrArg _ (congrArg (ix2 k) (Fin.ext (by show 128 * 2 + j.val - (128 + 128) = j.val; omega))))).trans ?_
  exact layer_apply (2 : Fin 3) _ slices_S3x128x128_S1x128x128_2_0_0 k j

theorem bias_2 : V m c main_v88 (ix2 (0 : Fin 1) (col 2 (by decide) j)) = (m ((c : Thread nD τ).loc main_arg14)) (ix1 j) := by
  have hj := j.isLt
  rw [bias_eq]
  refine (broadcastInDim_apply _ bcast_S512_S1x512_1 _ _ (ix1 (col 2 (by decide) j)) (fun a => by
    match a with
    | ⟨0, _⟩ => show (col 2 (by decide) j).val = if (512 : Nat) = 1 then 0 else (col 2 (by decide) j).val; rw [if_neg (by decide)])).trans ?_
  exact concatenate_apply_piece (t := S512) (0 : Fin 1) [⟨S128, (m ((c : Thread nD τ).loc main_arg12))⟩, ⟨S128, (m ((c : Thread nD τ).loc main_arg13))⟩, ⟨S128, (m ((c : Thread nD τ).loc main_arg14))⟩, ⟨S128, (m ((c : Thread nD τ).loc main_arg15))⟩] concatenates_S128_S128_S128_S128_S512_d0
    (ix1 (col 2 (by decide) j)) 2 (by simp) S128 (m ((c : Thread nD τ).loc main_arg14)) rfl rfl (128 + 128) rfl (ix1 j)
    (fun b hb => by
      match b with
      | ⟨0, _⟩ => exact absurd rfl hb)
    (by show 128 + 128 + j.val = 128 * 2 + j.val; omega)

theorem Wall_3 : V m c main_v59 (ix2 k (col 3 (by decide) j)) = (m ((c : Thread nD τ).loc main_arg7)) (ix2 k j) := by
  have hj := j.isLt
  rw [Wall_eq]
  exact (Cert.LibColumnBlocks.cat4_3 _ _ _ _ concatenates_S128x128_S128x128_S128x128_S128x128_S128x512_d1 k (col 3 (by decide) j) (by show 128 + 128 + 128 ≤ 128 * 3 + j.val; omega) (by show 128 * 3 + j.val - (128 + 128 + 128) < 128; omega)).trans
    (congrArg _ (congrArg (ix2 k) (Fin.ext (by show 128 * 3 + j.val - (128 + 128 + 128) = j.val; omega))))

theorem th0_3 : V m c main_v68 (ix2 k (col 3 (by decide) j)) = (m ((c : Thread nD τ).loc main_arg11)) (ix3 (0 : Fin 3) k j) := by
  have hj := j.isLt
  rw [th0_eq]
  refine ((Cert.LibColumnBlocks.cat4_3 _ _ _ _ concatenates_S128x128_S128x128_S128x128_S128x128_S128x512_d1 k (col 3 (by decide) j) (by show 128 + 128 + 128 ≤ 128 * 3 + j.val; omega) (by show 128 * 3 + j.val - (128 + 128 + 128) < 128; omega)).trans
    (congrArg _ (congrArg (ix2 k) (Fin.ext (by show 128 * 3 + j.val - (128 + 128 + 128) = j.val; omega))))).trans ?_
  exact layer_apply (0 : Fin 3) _ slices_S3x128x128_S1x128x128_0_0_0 k j

theorem th1_3 : V m c main_v77 (ix2 k (col 3 (by decide) j)) = (m ((c : Thread nD τ).loc main_arg11)) (ix3 (1 : Fin 3) k j) := by
  have hj := j.isLt
  rw [th1_eq]
  refine ((Cert.LibColumnBlocks.cat4_3 _ _ _ _ concatenates_S128x128_S128x128_S128x128_S128x128_S128x512_d1 k (col 3 (by decide) j) (by show 128 + 128 + 128 ≤ 128 * 3 + j.val; omega) (by show 128 * 3 + j.val - (128 + 128 + 128) < 128; omega)).trans
    (congrArg _ (congrArg (ix2 k) (Fin.ext (by show 128 * 3 + j.val - (128 + 128 + 128) = j.val; omega))))).trans ?_
  exact layer_apply (1 : Fin 3) _ slices_S3x128x128_S1x128x128_1_0_0 k j

theorem th2_3 : V m c main_v86 (ix2 k (col 3 (by decide) j)) = (m ((c : Thread nD τ).loc main_arg11)) (ix3 (2 : Fin 3) k j) := by
  have hj := j.isLt
  rw [th2_eq]
  refine ((Cert.LibColumnBlocks.cat4_3 _ _ _ _ concatenates_S128x128_S128x128_S128x128_S128x128_S128x512_d1 k (col 3 (by decide) j) (by show 128 + 128 + 128 ≤ 128 * 3 + j.val; omega) (by show 128 * 3 + j.val - (128 + 128 + 128) < 128; omega)).trans
    (congrArg _ (congrArg (ix2 k) (Fin.ext (by show 128 * 3 + j.val - (128 + 128 + 128) = j.val; omega))))).trans ?_
  exact layer_apply (2 : Fin 3) _ slices_S3x128x128_S1x128x128_2_0_0 k j

theorem bias_3 : V m c main_v88 (ix2 (0 : Fin 1) (col 3 (by decide) j)) = (m ((c : Thread nD τ).loc main_arg15)) (ix1 j) := by
  have hj := j.isLt
  rw [bias_eq]
  refine (broadcastInDim_apply _ bcast_S512_S1x512_1 _ _ (ix1 (col 3 (by decide) j)) (fun a => by
    match a with
    | ⟨0, _⟩ => show (col 3 (by decide) j).val = if (512 : Nat) = 1 then 0 else (col 3 (by decide) j).val; rw [if_neg (by decide)])).trans ?_
  exact concatenate_apply_piece (t := S512) (0 : Fin 1) [⟨S128, (m ((c : Thread nD τ).loc main_arg12))⟩, ⟨S128, (m ((c : Thread nD τ).loc main_arg13))⟩, ⟨S128, (m ((c : Thread nD τ).loc main_arg14))⟩, ⟨S128, (m ((c : Thread nD τ).loc main_arg15))⟩] concatenates_S128_S128_S128_S128_S512_d0
    (ix1 (col 3 (by decide) j)) 3 (by simp) S128 (m ((c : Thread nD τ).loc main_arg15)) rfl rfl (128 + 128 + 128) rfl (ix1 j)
    (fun b hb => by
      match b with
      | ⟨0, _⟩ => exact absurd rfl hb)
    (by show 128 + 128 + 128 + j.val = 128 * 3 + j.val; omega)

theorem peep16 : V m c main_v89 (ix2 (0 : Fin 1) j) = (m ((c : Thread nD τ).loc main_arg16)) (ix1 j) := by rw [peep16_eq]; exact row_apply _ j
theorem peep17 : V m c main_v90 (ix2 (0 : Fin 1) j) = (m ((c : Thread nD τ).loc main_arg17)) (ix1 j) := by rw [peep17_eq]; exact row_apply _ j
theorem peep18 : V m c main_v91 (ix2 (0 : Fin 1) j) = (m ((c : Thread nD τ).loc main_arg18)) (ix1 j) := by rw [peep18_eq]; exact row_apply _ j

end Four

end Cert.KernelIdeal.Arrays

end
-- ==== Proof.WholeKernelIdeal.lean ====
/-
  The two result arrays of `KernelIdeal` after the run, each as one function of the arrays the region
  finds, on the extended reals.

  Grid point t holds rows 2000·t … 2000·t + 1999 of the five node arrays and of the two results, and the
  stacked weights, the bias row and the peephole rows whole (their blocks do not move). What point t
  writes back is therefore rows 2000·t … of the cell function (resp. the hidden-state function) of the
  whole arrays; the 25 points' row blocks cover the 50000 rows, so each result array ends as that function.
-/
import proofs.«174544_j50483045597456_1_alg».proof.Proof.BodyKernelIdeal
import proofs.«174544_j50483045597456_1_alg».proof.Proof.PayKernelIdeal
import proofs.«174544_j50483045597456_1_alg».proof.Proof.ArraysKernelIdeal

set_option maxRecDepth 16384

noncomputable section

namespace Cert.KernelIdeal.Whole

open Cert.KernelIdeal Cert.KernelIdeal.Gen Cert.KernelIdeal.Entry Cert.KernelIdeal.Body Cert.CellSpec
open Idealize.ShloMosaic.TcCoe
open Idealize.ShloMosaic Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 25 grid points -/

/-- A row window's block index at point t is (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- A whole-array window's block index is (0, 0) at every point. -/
theorem idx_const : ∀ t : Fin cfg0.N,
    win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- The array row that row `p` of point `t`'s block is. -/
def rowOf (t : Fin cfg0.N) (p : Fin 2000) : Fin 50000 :=
  ⟨t.val * 2000 + p.val, by have ht : t.val < 25 := lt_of_lt_of_eq t.isLt N_0; have hp := p.isLt; omega⟩

/-! ## Each input block, read off its array -/

section Blocks
variable (c : Dev nD) (t : Fin cfg0.N)

theorem blk_0 (p : Fin 2000) (k : Fin 128) : iblk m c 0 t (ix2 p k) = V m c main_arg0 (ix2 (rowOf t p) k) := by
  obtain ⟨r0a, r0b, r1a, r1b, r2a, r2b, r3a, r3b, r4a, r4b, r13a, r13b, r14a, r14b⟩ := idx_rows t
  show V m c main_arg0 (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem blk_1 (p : Fin 2000) (k : Fin 128) : iblk m c 1 t (ix2 p k) = V m c main_arg1 (ix2 (rowOf t p) k) := by
  obtain ⟨r0a, r0b, r1a, r1b, r2a, r2b, r3a, r3b, r4a, r4b, r13a, r13b, r14a, r14b⟩ := idx_rows t
  show V m c main_arg1 (((cfg0.win 1).blk t).view.emb (ix2 p k)) = _
  refine congrArg _ (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

theorem blk_2 (p : Fin 2000) (k : Fin 128) : iblk m c 2 t (ix2 p k) = V m c main_v42 (ix2 (rowOf t p) k) := by
  obtain ⟨r0a, r0b, r1a, r1b, r2a, r2b, r3a, r3b, r4a, r4b, r13a, r13b, r14a, r14b⟩ := idx_rows t
  show V m c main_v42 (((cfg0.win 2).blk t).view.emb (ix2 p k)) = _
  refine congrArg _ (funext fun a => Fin.ext ?_)
  match a with
  | ⟨0, _⟩ => show win0_2.index t (0 : Fin 2) * 2000 + 1 * p.val = t.val * 2000 + p.val; omega
  | ⟨1, _⟩ => show win0_2.index t (1 : Fin 2) * 128 + 1 * k.val = k.val; omega

theorem blk_3 (p : Fin 2000) (k : Fin 128) : iblk m c 3 t (ix2 p k) = V m c main_v58 (ix2 (rowOf t p) k) := by
  obtain ⟨r0a, r0b, r1a, r1b, r2a, r2b, r3a, r3b, r4a, r4b, r13a, r13b, r14a, r14b⟩ := idx_rows t
  show V m c main_v58 (((cfg0.win 3).blk t).view.emb (ix2 p k)) = _
  refine congrArg _ (funext fun a => Fin.ext ?_)
  match a with
  | ⟨0, _⟩ => show win0_3.index t (0 : Fin 2) * 2000 + 1 * p.val = t.val * 2000 + p.val; omega
  | ⟨1, _⟩ => show win0_3.index t (1 : Fin 2) * 128 + 1 * k.val = k.val; omega

theorem blk_4 (p : Fin 2000) (k : Fin 128) : iblk m c 4 t (ix2 p k) = V m c main_arg2 (ix2 (rowOf t p) k) := by
  obtain ⟨r0a, r0b, r1a, r1b, r2a, r2b, r3a, r3b, r4a, r4b, r13a, r13b, r14a, r14b⟩ := idx_rows t
  show V m c main_arg2 (((cfg0.win 4).blk t).view.emb (ix2 p k)) = _
  refine congrArg _ (funext fun a => Fin.ext ?_)
  match a with
  | ⟨0, _⟩ => show win0_4.index t (0 : Fin 2) * 2000 + 1 * p.val = t.val * 2000 + p.val; omega
  | ⟨1, _⟩ => show win0_4.index t (1 : Fin 2) * 128 + 1 * k.val = k.val; omega

theorem blk_5 (a : Fin 128) (b : Fin 512) : iblk m c 5 t (ix2 a b) = V m c main_v59 (ix2 a b) := by
  obtain ⟨k5a, k5b, k6a, k6b, k7a, k7b, k8a, k8b, k9a, k9b, k10a, k10b, k11a, k11b, k12a, k12b⟩ := idx_const t
  show V m c main_v59 (((cfg0.win 5).blk t).view.emb (ix2 a b)) = _
  refine congrArg _ (funext fun x => Fin.ext ?_)
  match x with
  | ⟨0, _⟩ => show win0_5.index t (0 : Fin 2) * 128 + 1 * a.val = a.val; omega
  | ⟨1, _⟩ => show win0_5.index t (1 : Fin 2) * 512 + 1 * b.val = b.val; omega

theorem blk_6 (a : Fin 128) (b : Fin 512) : iblk m c 6 t (ix2 a b) = V m c main_v68 (ix2 a b) := by
  obtain ⟨k5a, k5b, k6a, k6b, k7a, k7b, k8a, k8b, k9a, k9b, k10a, k10b, k11a, k11b, k12a, k12b⟩ := idx_const t
  show V m c main_v68 (((cfg0.win 6).blk t).view.emb (ix2 a b)) = _
  refine congrArg _ (funext fun x => Fin.ext ?_)
  match x with
  | ⟨0, _⟩ => show win0_6.index t (0 : Fin 2) * 128 + 1 * a.val = a.val; omega
  | ⟨1, _⟩ => show win0_6.index t (1 : Fin 2) * 512 + 1 * b.val = b.val; omega

theorem blk_7 (a : Fin 128) (b : Fin 512) : iblk m c 7 t (ix2 a b) = V m c main_v77 (ix2 a b) := by
  obtain ⟨k5a, k5b, k6a, k6b, k7a, k7b, k8a, k8b, k9a, k9b, k10a, k10b, k11a, k11b, k12a, k12b⟩ := idx_const t
  show V m c main_v77 (((cfg0.win 7).blk t).view.emb (ix2 a b)) = _
  refine congrArg _ (funext fun x => Fin.ext ?_)
  match x with
  | ⟨0, _⟩ => show win0_7.index t (0 : Fin 2) * 128 + 1 * a.val = a.val; omega
  | ⟨1, _⟩ => show win0_7.index t (1 : Fin 2) * 512 + 1 * b.val = b.val; omega

theorem blk_8 (a : Fin 128) (b : Fin 512) : iblk m c 8 t (ix2 a b) = V m c main_v86 (ix2 a b) := by
  obtain ⟨k5a, k5b, k6a, k6b, k7a, k7b, k8a, k8b, k9a, k9b, k10a, k10b, k11a, k11b, k12a, k12b⟩ := idx_const t
  show V m c main_v86 (((cfg0.win 8).blk t).view.emb (ix2 a b)) = _
  refine congrArg _ (funext fun x => Fin.ext ?_)
  match x with
  | ⟨0, _⟩ => show win0_8.index t (0 : Fin 2) * 128 + 1 * a.val = a.val; omega
  | ⟨1, _⟩ => show win0_8.index t (1 : Fin 2) * 512 + 1 * b.val = b.val; omega

theorem blk_9 (a : Fin 1) (b : Fin 512) : iblk m c 9 t (ix2 a b) = V m c main_v88 (ix2 a b) := by
  obtain ⟨k5a, k5b, k6a, k6b, k7a, k7b, k8a, k8b, k9a, k9b, k10a, k10b, k11a, k11b, k12a, k12b⟩ := idx_const t
  show V m c main_v88 (((cfg0.win 9).blk t).view.emb (ix2 a b)) = _
  refine congrArg _ (funext fun x => Fin.ext ?_)
  match x with
  | ⟨0, _⟩ => show win0_9.index t (0 : Fin 2) * 1 + 1 * a.val = a.val; omega
  | ⟨1, _⟩ => show win0_9.index t (1 : Fin 2) * 512 + 1 * b.val = b.val; omega

theorem blk_10 (a : Fin 1) (b : Fin 128) : iblk m c 10 t (ix2 a b) = V m c main_v89 (ix2 a b) := by
  obtain ⟨k5a, k5b, k6a, k6b, k7a, k7b, k8a, k8b, k9a, k9b, k10a, k10b, k11a, k11b, k12a, k12b⟩ := idx_const t
  show V m c main_v89 (((cfg0.win 10).blk t).view.emb (ix2 a b)) = _
  refine congrArg _ (funext fun x => Fin.ext ?_)
  match x with
  | ⟨0, _⟩ => show win0_10.index t (0 : Fin 2) * 1 + 1 * a.val = a.val; omega
  | ⟨1, _⟩ => show win0_10.index t (1 : Fin 2) * 128 + 1 * b.val = b.val; omega

theorem blk_11 (a : Fin 1) (b : Fin 128) : iblk m c 11 t (ix2 a b) = V m c main_v90 (ix2 a b) := by
  obtain ⟨k5a, k5b, k6a, k6b, k7a, k7b, k8a, k8b, k9a, k9b, k10a, k10b, k11a, k11b, k12a, k12b⟩ := idx_const t
  show V m c main_v90 (((cfg0.win 11).blk t).view.emb (ix2 a b)) = _
  refine congrArg _ (funext fun x => Fin.ext ?_)
  match x with
  | ⟨0, _⟩ => show win0_11.index t (0 : Fin 2) * 1 + 1 * a.val = a.val; omega
  | ⟨1, _⟩ => show win0_11.index t (1 : Fin 2) * 128 + 1 * b.val = b.val; omega

theorem blk_12 (a : Fin 1) (b : Fin 128) : iblk m c 12 t (ix2 a b) = V m c main_v91 (ix2 a b) := by
  obtain ⟨k5a, k5b, k6a, k6b, k7a, k7b, k8a, k8b, k9a, k9b, k10a, k10b, k11a, k11b, k12a, k12b⟩ := idx_const t
  show V m c main_v91 (((cfg0.win 12).blk t).view.emb (ix2 a b)) = _
  refine congrArg _ (funext fun x => Fin.ext ?_)
  match x with
  | ⟨0, _⟩ => show win0_12.index t (0 : Fin 2) * 1 + 1 * a.val = a.val; omega
  | ⟨1, _⟩ => show win0_12.index t (1 : Fin 2) * 128 + 1 * b.val = b.val; omega

end Blocks

/-! ## The two whole-array functions -/

/-- The new cell state of every node, from the arguments and the two sparse products as the region finds them. -/
def cellArr (c : Dev nD) : S50000x128.Idx → EReal := fun i =>
  cellG (m ((c : Thread nD τ).loc main_arg0)) (m ((c : Thread nD τ).loc main_arg1)) (V m c main_v42) (V m c main_v58) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10))
    (m ((c : Thread nD τ).loc main_arg12)) (m ((c : Thread nD τ).loc main_arg13)) (m ((c : Thread nD τ).loc main_arg14)) (m ((c : Thread nD τ).loc main_arg16)) (m ((c : Thread nD τ).loc main_arg17)) (i 0) (i 1)

/-- The new hidden state of every node. -/
def hiddenArr (c : Dev nD) : S50000x128.Idx → EReal := fun i =>
  hiddenG (m ((c : Thread nD τ).loc main_arg0)) (m ((c : Thread nD τ).loc main_arg1)) (V m c main_v42) (V m c main_v58) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (i 0) (i 1)

/-! ## What a point computes, at row p of its block and channel q -/

section Point
variable (c : Dev nD) (t : Fin cfg0.N) (p : Fin 2000) (q : Fin 128)

/-- The point's new cell state at (p, q) is the cell function of the arrays at (rowOf t p, q). -/
theorem point_cell_eq :
    cellBlk (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix2 p q)
      = cellArr m c (ix2 (rowOf t p) q) := by
  unfold cellBlk
  simp only [View.ld_unit_zero (S := S2000x128) hz, View.ld_unit_zero (S := S128x512) hz, View.ld_unit_zero (S := S1x512) hz, View.ld_unit_zero (S := S1x128) hz]
  refine (Cert.KernelIdeal.Pay.point_cell (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) p q).trans ?_
  exact cell_bridge (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)
    (m ((c : Thread nD τ).loc main_arg0)) (m ((c : Thread nD τ).loc main_arg1)) (V m c main_v42) (V m c main_v58) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10))
    (m ((c : Thread nD τ).loc main_arg12)) (m ((c : Thread nD τ).loc main_arg13)) (m ((c : Thread nD τ).loc main_arg14)) (m ((c : Thread nD τ).loc main_arg16)) (m ((c : Thread nD τ).loc main_arg17)) p (rowOf t p) q
    (fun k => (blk_0 m c t p k).trans (congrFun (V_main_arg0 m c) _)) (fun k => (blk_1 m c t p k).trans (congrFun (V_main_arg1 m c) _))
    (fun k => blk_2 m c t p k) (fun k => blk_3 m c t p k) ((blk_4 m c t p q).trans (congrFun (V_main_arg2 m c) _))
    (fun k => (blk_5 m c t k _).trans (Cert.KernelIdeal.Arrays.Wall_0 m c k q)) (fun k => (blk_6 m c t k _).trans (Cert.KernelIdeal.Arrays.th0_0 m c k q))
    (fun k => (blk_7 m c t k _).trans (Cert.KernelIdeal.Arrays.th1_0 m c k q)) (fun k => (blk_8 m c t k _).trans (Cert.KernelIdeal.Arrays.th2_0 m c k q))
    ((blk_9 m c t _ _).trans (Cert.KernelIdeal.Arrays.bias_0 m c q))
    (fun k => (blk_5 m c t k _).trans (Cert.KernelIdeal.Arrays.Wall_1 m c k q)) (fun k => (blk_6 m c t k _).trans (Cert.KernelIdeal.Arrays.th0_1 m c k q))
    (fun k => (blk_7 m c t k _).trans (Cert.KernelIdeal.Arrays.th1_1 m c k q)) (fun k => (blk_8 m c t k _).trans (Cert.KernelIdeal.Arrays.th2_1 m c k q))
    ((blk_9 m c t _ _).trans (Cert.KernelIdeal.Arrays.bias_1 m c q))
    (fun k => (blk_5 m c t k _).trans (Cert.KernelIdeal.Arrays.Wall_2 m c k q)) (fun k => (blk_6 m c t k _).trans (Cert.KernelIdeal.Arrays.th0_2 m c k q))
    (fun k => (blk_7 m c t k _).trans (Cert.KernelIdeal.Arrays.th1_2 m c k q)) (fun k => (blk_8 m c t k _).trans (Cert.KernelIdeal.Arrays.th2_2 m c k q))
    ((blk_9 m c t _ _).trans (Cert.KernelIdeal.Arrays.bias_2 m c q))
    ((blk_10 m c t _ _).trans (Cert.KernelIdeal.Arrays.peep16 m c q)) ((blk_11 m c t _ _).trans (Cert.KernelIdeal.Arrays.peep17 m c q))

/-- The point's new hidden state at (p, q) is the hidden-state function of the arrays at (rowOf t p, q). -/
theorem point_hidden_eq :
    hiddenBlk (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix2 p q)
      = hiddenArr m c (ix2 (rowOf t p) q) := by
  have hcell := point_cell_eq m c t p q
  unfold cellBlk at hcell
  simp only [View.ld_unit_zero (S := S2000x128) hz, View.ld_unit_zero (S := S128x512) hz, View.ld_unit_zero (S := S1x512) hz, View.ld_unit_zero (S := S1x128) hz] at hcell
  unfold hiddenBlk
  simp only [View.ld_unit_zero (S := S2000x128) hz, View.ld_unit_zero (S := S128x512) hz, View.ld_unit_zero (S := S1x512) hz, View.ld_unit_zero (S := S1x128) hz]
  refine (Cert.KernelIdeal.Pay.point_hidden (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) p q).trans ?_
  exact hidden_bridge (iblk m c 0 t) (iblk m c 1 t) (iblk m c 2 t) (iblk m c 3 t) (iblk m c 5 t) (iblk m c 6 t) (iblk m c 7 t)
    (iblk m c 8 t) (iblk m c 9 t) (iblk m c 12 t)
    (m ((c : Thread nD τ).loc main_arg0)) (m ((c : Thread nD τ).loc main_arg1)) (V m c main_v42) (V m c main_v58) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) p (rowOf t p) q _
    (fun k => (blk_0 m c t p k).trans (congrFun (V_main_arg0 m c) _)) (fun k => (blk_1 m c t p k).trans (congrFun (V_main_arg1 m c) _))
    (fun k => blk_2 m c t p k) (fun k => blk_3 m c t p k)
    (fun k => (blk_5 m c t k _).trans (Cert.KernelIdeal.Arrays.Wall_3 m c k q)) (fun k => (blk_6 m c t k _).trans (Cert.KernelIdeal.Arrays.th0_3 m c k q))
    (fun k => (blk_7 m c t k _).trans (Cert.KernelIdeal.Arrays.th1_3 m c k q)) (fun k => (blk_8 m c t k _).trans (Cert.KernelIdeal.Arrays.th2_3 m c k q))
    ((blk_9 m c t _ _).trans (Cert.KernelIdeal.Arrays.bias_3 m c q))
    ((blk_12 m c t _ _).trans (Cert.KernelIdeal.Arrays.peep18 m c q))
    hcell

end Point

/-! ## What point t writes back, the cover, the arrays after the run -/

/-- What point `t` writes back into result window 13 is block `t` of the whole-array function. -/
theorem flushed13_eq (c : Dev nD) (t : Fin cfg0.N) :
    (dats m 0 c).flushed 13 t = ((cfg0.win 13).blk t).view.read (Elt Ideal) (hiddenArr m c) := by
  show (cfg0.win 13).cut (grid0.coords t) ((dats m 0 c).after 13 t) = _
  rw [after0_13]
  unfold out0_13
  rw [View.canon_unit_zero hz]
  funext y
  obtain ⟨p, q, rfl⟩ : ∃ (p : Fin 2000) (q : Fin 128), y = ix2 p q := ⟨y 0, y 1, eq_ix2 y⟩
  refine (point_hidden_eq m c t p q).trans ?_
  show hiddenArr m c (ix2 (rowOf t p) q) = hiddenArr m c (((cfg0.win 13).blk t).view.emb (ix2 p q))
  obtain ⟨r0a, r0b, r1a, r1b, r2a, r2b, r3a, r3b, r4a, r4b, r13a, r13b, r14a, r14b⟩ := idx_rows t
  refine congrArg _ (funext fun a => Fin.ext ?_)
  match a with
  | ⟨0, _⟩ => show t.val * 2000 + p.val = win0_13.index t (0 : Fin 2) * 2000 + 1 * p.val; omega
  | ⟨1, _⟩ => show q.val = win0_13.index t (1 : Fin 2) * 128 + 1 * q.val; omega

/-- An index of result array 13 is in point `t`'s block iff each coordinate is in the block's range. -/
theorem mem_blk13 (t : Fin cfg0.N) (i : S50000x128.Idx) :
    i ∈ ((cfg0.win 13).blk t).view.set ↔ ∀ a : Fin 2, win0_13.index t a * S2000x128.size a ≤ (i a).val ∧ (i a).val < win0_13.index t a * S2000x128.size a + S2000x128.size a := by
  show i ∈ ((View.whole main_v92_0).slice (win0_13.rect t)).set ↔ _
  rw [View.set_slice_whole, Rect.mem_set_unit]
  exact Iff.rfl

/-- Every index is in some flushing point's block: row r is in block r / 2000. -/
theorem cover13 (i : S50000x128.Idx) : ∃ t : Fin cfg0.N, (cfg0.win 13).flush t = true ∧ i ∈ ((cfg0.win 13).blk t).view.set := by
  have hi0 : (i 0).val < 50000 := (i 0).isLt
  have hi1 : (i 1).val < 128 := (i 1).isLt
  let t : Fin cfg0.N := ⟨(i 0).val / 2000, by show (i 0).val / 2000 < grid0.N; rw [N_0]; omega⟩
  refine ⟨t, flush0_13 t, ?_⟩
  rw [mem_blk13]
  obtain ⟨r0a, r0b, r1a, r1b, r2a, r2b, r3a, r3b, r4a, r4b, r13a, r13b, r14a, r14b⟩ := idx_rows t
  have ht : t.val = (i 0).val / 2000 := rfl
  intro a
  match a with
  | ⟨0, _⟩ => show win0_13.index t (0 : Fin 2) * 2000 ≤ (i 0).val ∧ (i 0).val < win0_13.index t (0 : Fin 2) * 2000 + 2000; omega
  | ⟨1, _⟩ => show win0_13.index t (1 : Fin 2) * 128 ≤ (i 1).val ∧ (i 1).val < win0_13.index t (1 : Fin 2) * 128 + 128; omega

/-- Result array 13 after the run is the whole-array function. -/
theorem final13 (c : Dev nD) : (dats m 0 c).arrAt 13 cfg0.N = hiddenArr m c :=
  (dats m 0 c).arrAt_eq_of_cover 13 (hiddenArr m c) (fun t _ => flushed13_eq m c t) (cover13)

/-- What point `t` writes back into result window 14 is block `t` of the whole-array function. -/
theorem flushed14_eq (c : Dev nD) (t : Fin cfg0.N) :
    (dats m 0 c).flushed 14 t = ((cfg0.win 14).blk t).view.read (Elt Ideal) (cellArr m c) := by
  show (cfg0.win 14).cut (grid0.coords t) ((dats m 0 c).after 14 t) = _
  rw [after0_14]
  unfold out0_14
  rw [View.canon_unit_zero hz]
  funext y
  obtain ⟨p, q, rfl⟩ : ∃ (p : Fin 2000) (q : Fin 128), y = ix2 p q := ⟨y 0, y 1, eq_ix2 y⟩
  refine (point_cell_eq m c t p q).trans ?_
  show cellArr m c (ix2 (rowOf t p) q) = cellArr m c (((cfg0.win 14).blk t).view.emb (ix2 p q))
  obtain ⟨r0a, r0b, r1a, r1b, r2a, r2b, r3a, r3b, r4a, r4b, r13a, r13b, r14a, r14b⟩ := idx_rows t
  refine congrArg _ (funext fun a => Fin.ext ?_)
  match a with
  | ⟨0, _⟩ => show t.val * 2000 + p.val = win0_14.index t (0 : Fin 2) * 2000 + 1 * p.val; omega
  | ⟨1, _⟩ => show q.val = win0_14.index t (1 : Fin 2) * 128 + 1 * q.val; omega

/-- An index of result array 14 is in point `t`'s block iff each coordinate is in the block's range. -/
theorem mem_blk14 (t : Fin cfg0.N) (i : S50000x128.Idx) :
    i ∈ ((cfg0.win 14).blk t).view.set ↔ ∀ a : Fin 2, win0_14.index t a * S2000x128.size a ≤ (i a).val ∧ (i a).val < win0_14.index t a * S2000x128.size a + S2000x128.size a := by
  show i ∈ ((View.whole main_v92_1).slice (win0_14.rect t)).set ↔ _
  rw [View.set_slice_whole, Rect.mem_set_unit]
  exact Iff.rfl

/-- Every index is in some flushing point's block: row r is in block r / 2000. -/
theorem cover14 (i : S50000x128.Idx) : ∃ t : Fin cfg0.N, (cfg0.win 14).flush t = true ∧ i ∈ ((cfg0.win 14).blk t).view.set := by
  have hi0 : (i 0).val < 50000 := (i 0).isLt
  have hi1 : (i 1).val < 128 := (i 1).isLt
  let t : Fin cfg0.N := ⟨(i 0).val / 2000, by show (i 0).val / 2000 < grid0.N; rw [N_0]; omega⟩
  refine ⟨t, flush0_14 t, ?_⟩
  rw [mem_blk14]
  obtain ⟨r0a, r0b, r1a, r1b, r2a, r2b, r3a, r3b, r4a, r4b, r13a, r13b, r14a, r14b⟩ := idx_rows t
  have ht : t.val = (i 0).val / 2000 := rfl
  intro a
  match a with
  | ⟨0, _⟩ => show win0_14.index t (0 : Fin 2) * 2000 ≤ (i 0).val ∧ (i 0).val < win0_14.index t (0 : Fin 2) * 2000 + 2000; omega
  | ⟨1, _⟩ => show win0_14.index t (1 : Fin 2) * 128 ≤ (i 1).val ∧ (i 1).val < win0_14.index t (1 : Fin 2) * 128 + 128; omega

/-- Result array 14 after the run is the whole-array function. -/
theorem final14 (c : Dev nD) : (dats m 0 c).arrAt 14 cfg0.N = cellArr m c :=
  (dats m 0 c).arrAt_eq_of_cover 14 (cellArr m c) (fun t _ => flushed14_eq m c t) (cover14)

/-! ## The run, read -/

/-- Every weakly fair execution terminates without fault with the hidden-state result at `hiddenArr`, the
    cell-state result at `cellArr`, and every argument array as launched. -/
theorem run : θ_run defs (onTc (τ := τ) (main (F := Ideal))) ⟨m, fun _ => 0, ρ⟩ fun r => ∀ c : Dev nD,
      r.2.mem ((c.tc : Thread nD τ).loc main_v92_0) = hiddenArr m c
      ∧ r.2.mem ((c.tc : Thread nD τ).loc main_v92_1) = cellArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) := by
  refine (θ_run defs _ _).mono (fun r h c => ?_) (run_main m ρ)
  exact ⟨((h c).1 13).trans (final13 m c), ((h c).1 14).trans (final14 m c), frame_post_of m (dats m) (A_eq m) r h c⟩

end Cert.KernelIdeal.Whole

end
-- ==== Proof.LibRowScale.lean ====
/-
  Scaling the rows of a matrix by a per-row factor, at the extended reals.

  A vector of per-row factors `v : [A]` is stretched along the rows of an `[A, B]` matrix in two host steps, `[A] → [A, 1]`
  (dims 0) and `[A, 1] → [A, B]` (dims 0, 1); read at `(a, b)` the result is `v a`. With the factor `1 / max (c a) 1`,
  multiplying the matrix by the stretched factor is dividing it by the stretched `max (c a) 1`: the divisor is at least one,
  so it is not zero, and a quotient by a non-zero extended real is the product with its inverse — for every extended real
  numerator and every extended real `c a`, infinite ones included. The float word `0x3F800000` denotes the real one.
-/
import Idealize.ShloMosaic.PureOps.Ideal.Laws
import Idealize.ShloMosaic.Lib.ValueIdx
import Idealize.ShloMosaic.Lib.Pipeline.Value

noncomputable section

namespace Cert.LibRowScale

open Idealize.ShloMosaic Idealize.ShloMosaic.ValueIdx

/-- The float word of `1.0` denotes the real one. -/
theorem one_word : Ideal.ofBits .f32 0x3F800000#32 = 1 := by
  simp [Ideal.ofBits, Ideal.ieee, -EReal.coe_mul]; norm_num

/-- `max c 1` is not zero, whatever `c`. -/
theorem max_one_ne_zero (c : EReal) : max c 1 ≠ 0 :=
  ne_of_gt (lt_of_lt_of_le (by exact_mod_cast (zero_lt_one : (0 : ℝ) < 1)) (le_max_right c 1))

/-- `a · (1 / max c 1) = a / max c 1` on the extended reals. -/
theorem mul_recip (a c : EReal) : a * Ideal.div 1 (max c 1) = Ideal.div a (max c 1) := by
  rw [Ideal.div, Ideal.div, if_neg (max_one_ne_zero c), if_neg (max_one_ne_zero c), one_mul]

variable {α : Type}

/-- `[A]` laid into `[A, 1]` (dims 0), at `(a, z)`: the operand at `a`. -/
theorem hb_a_a1 {A : ℕ} (h : (⟨1, ![A]⟩ : Shape).BroadcastsInDim ⟨2, ![A, 1]⟩ ![0])
    (x : (⟨1, ![A]⟩ : Shape).Idx → α) (a : Fin A) (z : Fin 1) :
    broadcastInDim ⟨2, ![A, 1]⟩ ![0] h x (ix2 a z) = x (ix1 a) := by
  refine broadcastInDim_apply _ h x _ _ fun d => ?_
  match d with
  | ⟨0, _⟩ =>
    show a.val = if A = 1 then 0 else a.val
    split_ifs with hA
    · have := a.isLt; omega
    · rfl

/-- `[A, 1]` stretched to `[A, B]` (dims 0, 1), at `(a, b)`: the operand at `(a, 0)`. -/
theorem hb_a1_ab {A B : ℕ} (h : (⟨2, ![A, 1]⟩ : Shape).BroadcastsInDim ⟨2, ![A, B]⟩ ![0, 1])
    (x : (⟨2, ![A, 1]⟩ : Shape).Idx → α) (a : Fin A) (b : Fin B) :
    broadcastInDim ⟨2, ![A, B]⟩ ![0, 1] h x (ix2 a b) = x (ix2 a 0) := by
  refine broadcastInDim_apply _ h x _ _ fun d => ?_
  match d with
  | ⟨0, _⟩ =>
    show a.val = if A = 1 then 0 else a.val
    split_ifs with hA
    · have := a.isLt; omega
    · rfl
  | ⟨1, _⟩ => rfl

/-- A per-row factor stretched along the rows, at `(a, b)`: the factor of row `a`. -/
theorem rowStretch_apply {A B : ℕ} (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) :=
  (hb_a1_ab h2 _ a b).trans (hb_a_a1 h1 v a 0)

/-- A scalar broadcast to any shape, at any index: the scalar. -/
theorem hb_scalar {t : Shape} (h : (⟨0, ![]⟩ : Shape).BroadcastsInDim t ![])
    (x : (⟨0, ![]⟩ : Shape).Idx → α) (j : t.Idx) :
    broadcastInDim t ![] h x j = x ix0 :=
  broadcastInDim_apply _ h x _ _ fun d => d.elim0

/-- The matrix times the stretched `1 / max c 1` is the matrix divided by the stretched `max c 1`, the ones being
    the float word of `1.0` broadcast. -/
theorem mul_stretched_recip {A B : ℕ} (h0 : (⟨0, ![]⟩ : Shape).BroadcastsInDim ⟨1, ![A]⟩ ![])
    (h1 : (⟨1, ![A]⟩ : Shape).BroadcastsInDim ⟨2, ![A, 1]⟩ ![0])
    (h2 : (⟨2, ![A, 1]⟩ : Shape).BroadcastsInDim ⟨2, ![A, B]⟩ ![0, 1])
    (M : FVec Ideal ⟨2, ![A, B]⟩ .f32) (c : FVec Ideal ⟨1, ![A]⟩ .f32) :
    mulf M (broadcastInDim ⟨2, ![A, B]⟩ ![0, 1] h2 (broadcastInDim ⟨2, ![A, 1]⟩ ![0] h1
        (Host.divf (broadcastInDim ⟨1, ![A]⟩ ![] h0 (constant (F := Ideal) ⟨0, ![]⟩ .f32 0x3F800000#32))
          (maximumf c (broadcastInDim ⟨1, ![A]⟩ ![] h0 (constant (F := Ideal) ⟨0, ![]⟩ .f32 0x3F800000#32))))))
      = Host.divf M (broadcastInDim ⟨2, ![A, B]⟩ ![0, 1] h2 (broadcastInDim ⟨2, ![A, 1]⟩ ![0] h1
          (maximumf c (broadcastInDim ⟨1, ![A]⟩ ![] h0 (constant (F := Ideal) ⟨0, ![]⟩ .f32 0x3F800000#32))))) := by
  funext i
  obtain ⟨a, b, rfl⟩ : ∃ (a : Fin A) (b : Fin B), i = ix2 a b := ⟨i 0, i 1, eq_ix2 i⟩
  have e1 : ∀ j : (⟨1, ![A]⟩ : Shape).Idx,
      broadcastInDim ⟨1, ![A]⟩ ![] h0 (constant (F := Ideal) ⟨0, ![]⟩ .f32 0x3F800000#32) j = (1 : EReal) :=
    fun j => (hb_scalar h0 _ j).trans one_word
  show M (ix2 a b) * _ = Ideal.div (M (ix2 a b)) _
  rw [rowStretch_apply h1 h2 _ a b, rowStretch_apply h1 h2 _ a b]
  show M (ix2 a b) * Ideal.div _ (max (c (ix1 a)) _) = Ideal.div (M (ix2 a b)) (max (c (ix1 a)) _)
  rw [e1]
  exact mul_recip _ _

end Cert.LibRowScale

end
-- ==== Proof.RefCell.lean ====
/-
  The reference program's two results read at a node `r` and a channel `j`.

  Each gate's pre-activation is the input product plus (((T0·θ0 + T1·θ1) + T2·θ2) + b), every product a
  sum over the 128 contracted channels, the layer d of a gate's [3,128,128] weights sliced and recast to
  [128,128], the bias stretched along the nodes. The sparse products T1 and T2 are kept as whole arrays:
  the program computes them once per gate by the same operations of the same arguments, so the four copies
  are one array. The sigmoid is written out as 1/(1 + e^(−x)), which is the logistic function by definition.
-/
import proofs.«174544_j50483045597456_1_alg».proof.Proof.Gen.ReferenceIdeal.Read
import proofs.«174544_j50483045597456_1_alg».proof.Proof.CellSpec
import proofs.«174544_j50483045597456_1_alg».proof.Proof.LibRowScale

set_option maxRecDepth 16384

noncomputable section

namespace Cert.ReferenceIdeal.RefCell

open Cert.ReferenceIdeal Cert.ReferenceIdeal.Read Cert.CellSpec
open Idealize.ShloMosaic Idealize.ShloMosaic.ValueIdx

/-! ## The four gates -/

/-! ### Gate i -/

theorem i_θ0 (r : Fin 50000) (j k : Fin 128) : idx_main_v44 (idx_main_v45 (ridx_main_v46 (ix2 r j) k)) = ix3 (0 : Fin 3) k j := by
  have hk := k.isLt; have hj := j.isLt
  funext a; apply Fin.ext
  match a with
  | ⟨0, _⟩ => rfl
  | ⟨1, _⟩ => show (k.val * 128 + j.val) / 128 % 128 = k.val; omega
  | ⟨2, _⟩ => show (k.val * 128 + j.val) % 128 = j.val; omega
theorem i_l0 (r : Fin 50000) (j k : Fin 128) : lidx_main_v46 (ix2 r j) k = ix2 r k := by
  funext a; apply Fin.ext
  match a with
  | ⟨0, _⟩ => rfl
  | ⟨1, _⟩ => rfl
theorem i_θ1 (r : Fin 50000) (j k : Fin 128) : idx_main_v47 (idx_main_v48 (ridx_main_v49 (ix2 r j) k)) = ix3 (1 : Fin 3) k j := by
  have hk := k.isLt; have hj := j.isLt
  funext a; apply Fin.ext
  match a with
  | ⟨0, _⟩ => rfl
  | ⟨1, _⟩ => show (k.val * 128 + j.val) / 128 % 128 = k.val; omega
  | ⟨2, _⟩ => show (k.val * 128 + j.val) % 128 = j.val; omega
theorem i_l1 (r : Fin 50000) (j k : Fin 128) : lidx_main_v49 (ix2 r j) k = ix2 r k := by
  funext a; apply Fin.ext
  match a with
  | ⟨0, _⟩ => rfl
  | ⟨1, _⟩ => rfl
theorem i_θ2 (r : Fin 50000) (j k : Fin 128) : idx_main_v67 (idx_main_v68 (ridx_main_v69 (ix2 r j) k)) = ix3 (2 : Fin 3) k j := by
  have hk := k.isLt; have hj := j.isLt
  funext a; apply Fin.ext
  match a with
  | ⟨0, _⟩ => rfl
  | ⟨1, _⟩ => show (k.val * 128 + j.val) / 128 % 128 = k.val; omega
  | ⟨2, _⟩ => show (k.val * 128 + j.val) % 128 = j.val; omega
theorem i_l2 (r : Fin 50000) (j k : Fin 128) : lidx_main_v69 (ix2 r j) k = ix2 r k := by
  funext a; apply Fin.ext
  match a with
  | ⟨0, _⟩ => rfl
  | ⟨1, _⟩ => rfl
theorem i_lx (r : Fin 50000) (j k : Fin 128) : lidx_main_v30 (ix2 r j) k = ix2 r k := by
  funext a; apply Fin.ext
  match a with
  | ⟨0, _⟩ => rfl
  | ⟨1, _⟩ => rfl
theorem i_rx (r : Fin 50000) (j k : Fin 128) : ridx_main_v30 (ix2 r j) k = ix2 k j := by
  funext a; apply Fin.ext
  match a with
  | ⟨0, _⟩ => rfl
  | ⟨1, _⟩ => rfl
theorem i_b (r : Fin 50000) (j : Fin 128) : idx_main_v71 (idx_main_v72 (ix2 r j)) = ix1 j := by
  funext a; apply Fin.ext
  match a with
  | ⟨0, _⟩ => rfl

/-- Gate i's pre-activation at node `r`, channel `j`: the five terms, the graph-side four grouped first. -/
theorem pre_i (x0 x1 : (⟨S50000x128, .f32⟩ : BufTy).Contents (Elt Ideal)) (x3 : (⟨S800000, .f32⟩ : BufTy).Contents (Elt Ideal)) (x4 : (⟨S128x128, .f32⟩ : BufTy).Contents (Elt Ideal)) (x8 : (⟨S3x128x128, .f32⟩ : BufTy).Contents (Elt Ideal)) (x12 : (⟨S128, .f32⟩ : BufTy).Contents (Elt Ideal)) (x19 : (⟨S2x800000, .i32⟩ : BufTy).Contents (Elt Ideal)) (r : Fin 50000) (j : Fin 128) :
    val_main_v74 (F := Ideal) x0 x1 x3 x4 x8 x12 x19 (ix2 r j)
      = pre x0 x1 (val_main_v43 (F := Ideal) x1 x3 x19) (val_main_v66 (F := Ideal) x1 x3 x19) x4 x8 x12 r j := by
  simp only [val_main_v74_apply, val_main_v30_apply, val_main_v73_apply, val_main_v72_apply, val_main_v71_apply,
    val_main_v70_apply, val_main_v69_apply, val_main_v68_apply, val_main_v67_apply, val_main_v50_apply,
    val_main_v46_apply, val_main_v45_apply, val_main_v44_apply, val_main_v49_apply, val_main_v48_apply, val_main_v47_apply,
    i_θ0, i_θ1, i_θ2, i_l0, i_l1, i_l2, i_lx, i_rx, i_b, Ideal.addf_def]
  rfl

/-! ### Gate f -/

theorem f_θ0 (r : Fin 50000) (j k : Fin 128) : idx_main_v99 (idx_main_v100 (ridx_main_v101 (ix2 r j) k)) = ix3 (0 : Fin 3) k j := by
  have hk := k.isLt; have hj := j.isLt
  funext a; apply Fin.ext
  match a with
  | ⟨0, _⟩ => rfl
  | ⟨1, _⟩ => show (k.val * 128 + j.val) / 128 % 128 = k.val; omega
  | ⟨2, _⟩ => show (k.val * 128 + j.val) % 128 = j.val; omega
theorem f_l0 (r : Fin 50000) (j k : Fin 128) : lidx_main_v101 (ix2 r j) k = ix2 r k := by
  funext a; apply Fin.ext
  match a with
  | ⟨0, _⟩ => rfl
  | ⟨1, _⟩ => rfl
theorem f_θ1 (r : Fin 50000) (j k : Fin 128) : idx_main_v102 (idx_main_v103 (ridx_main_v104 (ix2 r j) k)) = ix3 (1 : Fin 3) k j := by
  have hk := k.isLt; have hj := j.isLt
  funext a; apply Fin.ext
  match a with
  | ⟨0, _⟩ => rfl
  | ⟨1, _⟩ => show (k.val * 128 + j.val) / 128 % 128 = k.val; omega
  | ⟨2, _⟩ => show (k.val * 128 + j.val) % 128 = j.val; omega
theorem f_l1 (r : Fin 50000) (j k : Fin 128) : lidx_main_v104 (ix2 r j) k = ix2 r k := by
  funext a; apply Fin.ext
  match a with
  | ⟨0, _⟩ => rfl
  | ⟨1, _⟩ => rfl
theorem f_θ2 (r : Fin 50000) (j k : Fin 128) : idx_main_v122 (idx_main_v123 (ridx_main_v124 (ix2 r j) k)) = ix3 (2 : Fin 3) k j := by
  have hk := k.isLt; have hj := j.isLt
  funext a; apply Fin.ext
  match a with
  | ⟨0, _⟩ => rfl
  | ⟨1, _⟩ => show (k.val * 128 + j.val) / 128 % 128 = k.val; omega
  | ⟨2, _⟩ => show (k.val * 128 + j.val) % 128 = j.val; omega
theorem f_l2 (r : Fin 50000) (j k : Fin 128) : lidx_main_v124 (ix2 r j) k = ix2 r k := by
  funext a; apply Fin.ext
  match a with
  | ⟨0, _⟩ => rfl
  | ⟨1, _⟩ => rfl
theorem f_lx (r : Fin 50000) (j k : Fin 128) : lidx_main_v85 (ix2 r j) k = ix2 r k := by
  funext a; apply Fin.ext
  match a with
  | ⟨0, _⟩ => rfl
  | ⟨1, _⟩ => rfl
theorem f_rx (r : Fin 50000) (j k : Fin 128) : ridx_main_v85 (ix2 r j) k = ix2 k j := by
  funext a; apply Fin.ext
  match a with
  | ⟨0, _⟩ => rfl
  | ⟨1, _⟩ => rfl
theorem f_b (r : Fin 50000) (j : Fin 128) : idx_main_v126 (idx_main_v127 (ix2 r j)) = ix1 j := by
  funext a; apply Fin.ext
  match a with
  | ⟨0, _⟩ => rfl

/-- Gate f's pre-activation at node `r`, channel `j`: the five terms, the graph-side four grouped first. -/
theorem pre_f (x0 x1 : (⟨S50000x128, .f32⟩ : BufTy).Contents (Elt Ideal)) (x3 : (⟨S800000, .f32⟩ : BufTy).Contents (Elt Ideal)) (x5 : (⟨S128x128, .f32⟩ : BufTy).Contents (Elt Ideal)) (x9 : (⟨S3x128x128, .f32⟩ : BufTy).Contents (Elt Ideal)) (x13 : (⟨S128, .f32⟩ : BufTy).Contents (Elt Ideal)) (x19 : (⟨S2x800000, .i32⟩ : BufTy).Contents (Elt Ideal)) (r : Fin 50000) (j : Fin 128) :
    val_main_v129 (F := Ideal) x0 x1 x3 x5 x9 x13 x19 (ix2 r j)
      = pre x0 x1 (val_main_v98 (F := Ideal) x1 x3 x19) (val_main_v121 (F := Ideal) x1 x3 x19) x5 x9 x13 r j := by
  simp only [val_main_v129_apply, val_main_v85_apply, val_main_v128_apply, val_main_v127_apply, val_main_v126_apply,
    val_main_v125_apply, val_main_v124_apply, val_main_v123_apply, val_main_v122_apply, val_main_v105_apply,
    val_main_v101_apply, val_main_v100_apply, val_main_v99_apply, val_main_v104_apply, val_main_v103_apply, val_main_v102_apply,
    f_θ0, f_θ1, f_θ2, f_l0, f_l1, f_l2, f_lx, f_rx, f_b, Ideal.addf_def]
  rfl

/-! ### Gate c -/

theorem c_θ0 (r : Fin 50000) (j k : Fin 128) : idx_main_v154 (idx_main_v155 (ridx_main_v156 (ix2 r j) k)) = ix3 (0 : Fin 3) k j := by
  have hk := k.isLt; have hj := j.isLt
  funext a; apply Fin.ext
  match a with
  | ⟨0, _⟩ => rfl
  | ⟨1, _⟩ => show (k.val * 128 + j.val) / 128 % 128 = k.val; omega
  | ⟨2, _⟩ => show (k.val * 128 + j.val) % 128 = j.val; omega
theorem c_l0 (r : Fin 50000) (j k : Fin 128) : lidx_main_v156 (ix2 r j) k = ix2 r k := by
  funext a; apply Fin.ext
  match a with
  | ⟨0, _⟩ => rfl
  | ⟨1, _⟩ => rfl
theorem c_θ1 (r : Fin 50000) (j k : Fin 128) : idx_main_v157 (idx_main_v158 (ridx_main_v159 (ix2 r j) k)) = ix3 (1 : Fin 3) k j := by
  have hk := k.isLt; have hj := j.isLt
  funext a; apply Fin.ext
  match a with
  | ⟨0, _⟩ => rfl
  | ⟨1, _⟩ => show (k.val * 128 + j.val) / 128 % 128 = k.val; omega
  | ⟨2, _⟩ => show (k.val * 128 + j.val) % 128 = j.val; omega
theorem c_l1 (r : Fin 50000) (j k : Fin 128) : lidx_main_v159 (ix2 r j) k = ix2 r k := by
  funext a; apply Fin.ext
  match a with
  | ⟨0, _⟩ => rfl
  | ⟨1, _⟩ => rfl
theorem c_θ2 (r : Fin 50000) (j k : Fin 128) : idx_main_v177 (idx_main_v178 (ridx_main_v179 (ix2 r j) k)) = ix3 (2 : Fin 3) k j := by
  have hk := k.isLt; have hj := j.isLt
  funext a; apply Fin.ext
  match a with
  | ⟨0, _⟩ => rfl
  | ⟨1, _⟩ => show (k.val * 128 + j.val) / 128 % 128 = k.val; omega
  | ⟨2, _⟩ => show (k.val * 128 + j.val) % 128 = j.val; omega
theorem c_l2 (r : Fin 50000) (j k : Fin 128) : lidx_main_v179 (ix2 r j) k = ix2 r k := by
  funext a; apply Fin.ext
  match a with
  | ⟨0, _⟩ => rfl
  | ⟨1, _⟩ => rfl
theorem c_lx (r : Fin 50000) (j k : Fin 128) : lidx_main_v140 (ix2 r j) k = ix2 r k := by
  funext a; apply Fin.ext
  match a with
  | ⟨0, _⟩ => rfl
  | ⟨1, _⟩ => rfl
theorem c_rx (r : Fin 50000) (j k : Fin 128) : ridx_main_v140 (ix2 r j) k = ix2 k j := by
  funext a; apply Fin.ext
  match a with
  | ⟨0, _⟩ => rfl
  | ⟨1, _⟩ => rfl
theorem c_b (r : Fin 50000) (j : Fin 128) : idx_main_v181 (idx_main_v182 (ix2 r j)) = ix1 j := by
  funext a; apply Fin.ext
  match a with
  | ⟨0, _⟩ => rfl

/-- Gate c's pre-activation at node `r`, channel `j`: the five terms, the graph-side four grouped first. -/
theorem pre_c (x0 x1 : (⟨S50000x128, .f32⟩ : BufTy).Contents (Elt Ideal)) (x3 : (⟨S800000, .f32⟩ : BufTy).Contents (Elt Ideal)) (x6 : (⟨S128x128, .f32⟩ : BufTy).Contents (Elt Ideal)) (x10 : (⟨S3x128x128, .f32⟩ : BufTy).Contents (Elt Ideal)) (x14 : (⟨S128, .f32⟩ : BufTy).Contents (Elt Ideal)) (x19 : (⟨S2x800000, .i32⟩ : BufTy).Contents (Elt Ideal)) (r : Fin 50000) (j : Fin 128) :
    val_main_v184 (F := Ideal) x0 x1 x3 x6 x10 x14 x19 (ix2 r j)
      = pre x0 x1 (val_main_v153 (F := Ideal) x1 x3 x19) (val_main_v176 (F := Ideal) x1 x3 x19) x6 x10 x14 r j := by
  simp only [val_main_v184_apply, val_main_v140_apply, val_main_v183_apply, val_main_v182_apply, val_main_v181_apply,
    val_main_v180_apply, val_main_v179_apply, val_main_v178_apply, val_main_v177_apply, val_main_v160_apply,
    val_main_v156_apply, val_main_v155_apply, val_main_v154_apply, val_main_v159_apply, val_main_v158_apply, val_main_v157_apply,
    c_θ0, c_θ1, c_θ2, c_l0, c_l1, c_l2, c_lx, c_rx, c_b, Ideal.addf_def]
  rfl

/-! ### Gate o -/

theorem o_θ0 (r : Fin 50000) (j k : Fin 128) : idx_main_v203 (idx_main_v204 (ridx_main_v205 (ix2 r j) k)) = ix3 (0 : Fin 3) k j := by
  have hk := k.isLt; have hj := j.isLt
  funext a; apply Fin.ext
  match a with
  | ⟨0, _⟩ => rfl
  | ⟨1, _⟩ => show (k.val * 128 + j.val) / 128 % 128 = k.val; omega
  | ⟨2, _⟩ => show (k.val * 128 + j.val) % 128 = j.val; omega
theorem o_l0 (r : Fin 50000) (j k : Fin 128) : lidx_main_v205 (ix2 r j) k = ix2 r k := by
  funext a; apply Fin.ext
  match a with
  | ⟨0, _⟩ => rfl
  | ⟨1, _⟩ => rfl
theorem o_θ1 (r : Fin 50000) (j k : Fin 128) : idx_main_v206 (idx_main_v207 (ridx_main_v208 (ix2 r j) k)) = ix3 (1 : Fin 3) k j := by
  have hk := k.isLt; have hj := j.isLt
  funext a; apply Fin.ext
  match a with
  | ⟨0, _⟩ => rfl
  | ⟨1, _⟩ => show (k.val * 128 + j.val) / 128 % 128 = k.val; omega
  | ⟨2, _⟩ => show (k.val * 128 + j.val) % 128 = j.val; omega
theorem o_l1 (r : Fin 50000) (j k : Fin 128) : lidx_main_v208 (ix2 r j) k = ix2 r k := by
  funext a; apply Fin.ext
  match a with
  | ⟨0, _⟩ => rfl
  | ⟨1, _⟩ => rfl
theorem o_θ2 (r : Fin 50000) (j k : Fin 128) : idx_main_v226 (idx_main_v227 (ridx_main_v228 (ix2 r j) k)) = ix3 (2 : Fin 3) k j := by
  have hk := k.isLt; have hj := j.isLt
  funext a; apply Fin.ext
  match a with
  | ⟨0, _⟩ => rfl
  | ⟨1, _⟩ => show (k.val * 128 + j.val) / 128 % 128 = k.val; omega
  | ⟨2, _⟩ => show (k.val * 128 + j.val) % 128 = j.val; omega
theorem o_l2 (r : Fin 50000) (j k : Fin 128) : lidx_main_v228 (ix2 r j) k = ix2 r k := by
  funext a; apply Fin.ext
  match a with
  | ⟨0, _⟩ => rfl
  | ⟨1, _⟩ => rfl
theorem o_lx (r : Fin 50000) (j k : Fin 128) : lidx_main_v189 (ix2 r j) k = ix2 r k := by
  funext a; apply Fin.ext
  match a with
  | ⟨0, _⟩ => rfl
  | ⟨1, _⟩ => rfl
theorem o_rx (r : Fin 50000) (j k : Fin 128) : ridx_main_v189 (ix2 r j) k = ix2 k j := by
  funext a; apply Fin.ext
  match a with
  | ⟨0, _⟩ => rfl
  | ⟨1, _⟩ => rfl
theorem o_b (r : Fin 50000) (j : Fin 128) : idx_main_v230 (idx_main_v231 (ix2 r j)) = ix1 j := by
  funext a; apply Fin.ext
  match a with
  | ⟨0, _⟩ => rfl

/-- Gate o's pre-activation at node `r`, channel `j`: the five terms, the graph-side four grouped first. -/
theorem pre_o (x0 x1 : (⟨S50000x128, .f32⟩ : BufTy).Contents (Elt Ideal)) (x3 : (⟨S800000, .f32⟩ : BufTy).Contents (Elt Ideal)) (x7 : (⟨S128x128, .f32⟩ : BufTy).Contents (Elt Ideal)) (x11 : (⟨S3x128x128, .f32⟩ : BufTy).Contents (Elt Ideal)) (x15 : (⟨S128, .f32⟩ : BufTy).Contents (Elt Ideal)) (x19 : (⟨S2x800000, .i32⟩ : BufTy).Contents (Elt Ideal)) (r : Fin 50000) (j : Fin 128) :
    val_main_v233 (F := Ideal) x0 x1 x3 x7 x11 x15 x19 (ix2 r j)
      = pre x0 x1 (val_main_v202 (F := Ideal) x1 x3 x19) (val_main_v225 (F := Ideal) x1 x3 x19) x7 x11 x15 r j := by
  simp only [val_main_v233_apply, val_main_v189_apply, val_main_v232_apply, val_main_v231_apply, val_main_v230_apply,
    val_main_v229_apply, val_main_v228_apply, val_main_v227_apply, val_main_v226_apply, val_main_v209_apply,
    val_main_v205_apply, val_main_v204_apply, val_main_v203_apply, val_main_v208_apply, val_main_v207_apply, val_main_v206_apply,
    o_θ0, o_θ1, o_θ2, o_l0, o_l1, o_l2, o_lx, o_rx, o_b, Ideal.addf_def]
  rfl

/-! ## The sparse products are computed four times over, by the same operations -/

theorem T1_f (x1 : (⟨S50000x128, .f32⟩ : BufTy).Contents (Elt Ideal)) (x3 : (⟨S800000, .f32⟩ : BufTy).Contents (Elt Ideal)) (x19 : (⟨S2x800000, .i32⟩ : BufTy).Contents (Elt Ideal)) : val_main_v98 (F := Ideal) x1 x3 x19 = val_main_v43 (F := Ideal) x1 x3 x19 := rfl
theorem T1_c (x1 : (⟨S50000x128, .f32⟩ : BufTy).Contents (Elt Ideal)) (x3 : (⟨S800000, .f32⟩ : BufTy).Contents (Elt Ideal)) (x19 : (⟨S2x800000, .i32⟩ : BufTy).Contents (Elt Ideal)) : val_main_v153 (F := Ideal) x1 x3 x19 = val_main_v43 (F := Ideal) x1 x3 x19 := rfl
theorem T1_o (x1 : (⟨S50000x128, .f32⟩ : BufTy).Contents (Elt Ideal)) (x3 : (⟨S800000, .f32⟩ : BufTy).Contents (Elt Ideal)) (x19 : (⟨S2x800000, .i32⟩ : BufTy).Contents (Elt Ideal)) : val_main_v202 (F := Ideal) x1 x3 x19 = val_main_v43 (F := Ideal) x1 x3 x19 := rfl
theorem T2_f (x1 : (⟨S50000x128, .f32⟩ : BufTy).Contents (Elt Ideal)) (x3 : (⟨S800000, .f32⟩ : BufTy).Contents (Elt Ideal)) (x19 : (⟨S2x800000, .i32⟩ : BufTy).Contents (Elt Ideal)) : val_main_v121 (F := Ideal) x1 x3 x19 = val_main_v66 (F := Ideal) x1 x3 x19 := rfl
theorem T2_c (x1 : (⟨S50000x128, .f32⟩ : BufTy).Contents (Elt Ideal)) (x3 : (⟨S800000, .f32⟩ : BufTy).Contents (Elt Ideal)) (x19 : (⟨S2x800000, .i32⟩ : BufTy).Contents (Elt Ideal)) : val_main_v176 (F := Ideal) x1 x3 x19 = val_main_v66 (F := Ideal) x1 x3 x19 := rfl
theorem T2_o (x1 : (⟨S50000x128, .f32⟩ : BufTy).Contents (Elt Ideal)) (x3 : (⟨S800000, .f32⟩ : BufTy).Contents (Elt Ideal)) (x19 : (⟨S2x800000, .i32⟩ : BufTy).Contents (Elt Ideal)) : val_main_v225 (F := Ideal) x1 x3 x19 = val_main_v66 (F := Ideal) x1 x3 x19 := rfl

/-! ## The cell -/

/-- A peephole row stretched along the nodes, at (r, j). -/
theorem peep_i (r : Fin 50000) (j : Fin 128) : idx_main_v75 (idx_main_v76 (ix2 r j)) = ix1 j := by
  funext a; apply Fin.ext
  match a with
  | ⟨0, _⟩ => rfl
theorem peep_f (r : Fin 50000) (j : Fin 128) : idx_main_v130 (idx_main_v131 (ix2 r j)) = ix1 j := by
  funext a; apply Fin.ext
  match a with
  | ⟨0, _⟩ => rfl
theorem peep_o (r : Fin 50000) (j : Fin 128) : idx_main_v234 (idx_main_v235 (ix2 r j)) = ix1 j := by
  funext a; apply Fin.ext
  match a with
  | ⟨0, _⟩ => rfl

/-- The written-out sigmoid is the logistic function. -/
theorem sigmoid_eq (y : EReal) :
    Ideal.div (Ideal.ofBits .f32 0x3F800000#32) (Ideal.ofBits .f32 0x3F800000#32 + Ideal.exp (-y)) = Ideal.logistic y := by
  rw [Cert.LibRowScale.one_word]; rfl

/-- The new cell state at (r, j). -/
theorem cell_apply (x0 x1 x2 : (⟨S50000x128, .f32⟩ : BufTy).Contents (Elt Ideal)) (x3 : (⟨S800000, .f32⟩ : BufTy).Contents (Elt Ideal)) (x4 x5 x6 : (⟨S128x128, .f32⟩ : BufTy).Contents (Elt Ideal)) (x8 x9 x10 : (⟨S3x128x128, .f32⟩ : BufTy).Contents (Elt Ideal)) (x12 x13 x14 x16 x17 : (⟨S128, .f32⟩ : BufTy).Contents (Elt Ideal)) (x19 : (⟨S2x800000, .i32⟩ : BufTy).Contents (Elt Ideal))
    (r : Fin 50000) (j : Fin 128) :
    val_main_v188 (F := Ideal) x0 x1 x2 x3 x4 x5 x6 x8 x9 x10 x12 x13 x14 x16 x17 x19 (ix2 r j)
      = cellG x0 x1 (val_main_v43 (F := Ideal) x1 x3 x19) (val_main_v66 (F := Ideal) x1 x3 x19) x2 x4 x5 x6 x8 x9 x10 x12 x13 x14 x16 x17 r j := by
  simp only [val_main_v188_apply, val_main_v186_apply, val_main_v187_apply, val_main_v185_apply, val_main_v139_apply, val_main_v138_apply,
    val_main_v137_apply, val_main_v136_apply, val_main_v135_apply, val_main_v134_apply, val_main_v133_apply, val_main_v132_apply,
    val_main_v131_apply, val_main_v130_apply, val_main_v84_apply, val_main_v83_apply, val_main_v82_apply, val_main_v81_apply,
    val_main_v80_apply, val_main_v79_apply, val_main_v78_apply, val_main_v77_apply, val_main_v76_apply, val_main_v75_apply,
    pre_i, pre_f, pre_c, T1_f, T1_c, T2_f, T2_c, peep_i, peep_f]
  unfold cellG cellS
  simp only [val_main_cst_13, val_main_cst_14, val_main_cst_22, val_main_cst_23, constant_apply, Ideal.addf_def, Ideal.mulf_def,
    Ideal.hostDivf_def, Ideal.hostUnary_exp_def, Ideal.hostUnary_tanh_def, Ideal.hostNegf_def, Ideal.negf_def, sigmoid_eq]

/-- The new hidden state at (r, j). -/
theorem hidden_apply (x0 x1 x2 : (⟨S50000x128, .f32⟩ : BufTy).Contents (Elt Ideal)) (x3 : (⟨S800000, .f32⟩ : BufTy).Contents (Elt Ideal)) (x4 x5 x6 x7 : (⟨S128x128, .f32⟩ : BufTy).Contents (Elt Ideal)) (x8 x9 x10 x11 : (⟨S3x128x128, .f32⟩ : BufTy).Contents (Elt Ideal)) (x12 x13 x14 x15 x16 x17 x18 : (⟨S128, .f32⟩ : BufTy).Contents (Elt Ideal)) (x19 : (⟨S2x800000, .i32⟩ : BufTy).Contents (Elt Ideal))
    (r : Fin 50000) (j : Fin 128) :
    val_main_v245 (F := Ideal) x0 x1 x2 x3 x4 x5 x6 x7 x8 x9 x10 x11 x12 x13 x14 x15 x16 x17 x18 x19 (ix2 r j)
      = hiddenG x0 x1 (val_main_v43 (F := Ideal) x1 x3 x19) (val_main_v66 (F := Ideal) x1 x3 x19) x2 x4 x5 x6 x7 x8 x9 x10 x11 x12 x13 x14 x15 x16 x17 x18 r j := by
  simp only [val_main_v245_apply, val_main_v244_apply, val_main_v243_apply, val_main_v242_apply, val_main_v241_apply, val_main_v240_apply,
    val_main_v239_apply, val_main_v238_apply, val_main_v237_apply, val_main_v236_apply, val_main_v235_apply, val_main_v234_apply,
    pre_o, T1_o, T2_o, peep_o, cell_apply]
  unfold hiddenG hiddenS
  simp only [val_main_cst_38, val_main_cst_39, constant_apply, Ideal.addf_def, Ideal.mulf_def,
    Ideal.hostDivf_def, Ideal.hostUnary_exp_def, Ideal.hostUnary_tanh_def, Ideal.hostNegf_def, Ideal.negf_def, sigmoid_eq]

end Cert.ReferenceIdeal.RefCell

end
-- ==== Proof.LibFoldSegments.lean ====
/-
  Reading back a straight line of host operations a segment at a time: the method, and the one fact it needs beyond the library.

  The buffer contents after a line of host operations are a fold of the operations over the contents the line starts from.
  (1) The fold over two lists in a row is the fold over the second list of the fold over the first (the library's
  `StableHlo.after_append`), so a long line can be cut anywhere and each piece read over whatever contents it is entered with. (2) A called function that the printer has inlined
  keeps each of its values in a buffer through a pair of transports, into the buffer's own type and back to the value's type;
  for ANY typed reference the round trip is the identity, with no look-up of the buffer's type in the signature's tables.
  Together: cut the line at the inlined calls; read a plain piece directly against the values it is entered with; read an
  inlined call over the entering contents as they are, removing the round trips by (2) and the two transports at its
  boundary buffers by the plain fact that a transport along an equation between equal types is the identity, and only
  then compare. This matters when a call contains a reduction over an axis: there a direct comparison across the transports
  was found not to terminate within any recursion limit, while for calls made only of pointwise operations and broadcasts it
  does.
-/
import Idealize.ShloMosaic.Lib.StableHlo.Run

noncomputable section

namespace Cert.LibFoldSegments

open Idealize.ShloMosaic Idealize.ShloMosaic.StableHlo

variable {τ : Topo} {sig : RefSig} {Val : EltTy → Type}

/-- A value carried into the buffer of a typed reference and read back at the value's type is itself, for any reference. -/
theorem ofBuf_toBuf {T : BufTy} (x : TRef sig T) (v : T.Contents Val) : x.ofBuf (x.toBuf v) = v := by
  obtain ⟨r, h, h1, h2⟩ := x
  subst h
  rfl

end Cert.LibFoldSegments

end
-- ==== Proof.SparseSame.lean ====
/-
  The two sparse products are the same arrays in both programs.

  Both programs form the normalized edge weights (the degrees by a scatter-add of the edge weights over the
  source nodes, their inverse square roots where positive, the product with both end nodes' factors, negated)
  and then T1 = L·h (gather h at the sources, scale, scatter-add at the targets) and T2 = 2·L·T1 − h, by the
  same operations of the same arguments in the same order. So the array the kernel's region finds as T1
  (resp. T2) is, as a term, the reference's stage for it — once the transports that the kernel program's inlined
  selection call keeps its values through are removed (they are identities).
-/
import proofs.«174544_j50483045597456_1_alg».proof.Proof.EntryKernelIdeal
import proofs.«174544_j50483045597456_1_alg».proof.Proof.Gen.ReferenceIdeal.Read
import proofs.«174544_j50483045597456_1_alg».proof.Proof.LibFoldSegments
import Idealize.ShloMosaic.Lib.StableHlo.Run

set_option maxRecDepth 65536

noncomputable section

namespace Cert.SparseSame

open Idealize.ShloMosaic.TcCoe
open Idealize.ShloMosaic Idealize.ShloMosaic.StableHlo

variable (m : (ℓ : Loc Cert.KernelIdeal.nD Cert.KernelIdeal.τ Cert.KernelIdeal.sig) → Buf (Elt Ideal) ℓ)

/-! ## The inlined call's transports

The call to the three-way selection keeps each of its values in a buffer through a pair of transports, into the
buffer's own type and back. A round trip is the identity for any typed reference; at the call's boundary
buffers the buffer's type computes to the value's type, so a single transport is the identity too. -/

theorem ofBuf_v8 (h h2 h3) (v : (⟨Cert.KernelIdeal.S50000, .i1⟩ : BufTy).Contents (Elt Ideal)) :
    (TRef.of (T := ⟨Cert.KernelIdeal.S50000, .i1⟩) Cert.KernelIdeal.main_v8 h h2 h3).ofBuf (Val := Elt Ideal) v = v := rfl
theorem ofBuf_v11 (h h2 h3) (v : (⟨Cert.KernelIdeal.S50000, .f32⟩ : BufTy).Contents (Elt Ideal)) :
    (TRef.of (T := ⟨Cert.KernelIdeal.S50000, .f32⟩) Cert.KernelIdeal.main_v11 h h2 h3).ofBuf (Val := Elt Ideal) v = v := rfl
theorem ofBuf_cst2 (h h2 h3) (v : (⟨Cert.KernelIdeal.S_, .f32⟩ : BufTy).Contents (Elt Ideal)) :
    (TRef.of (T := ⟨Cert.KernelIdeal.S_, .f32⟩) Cert.KernelIdeal.main_cst_2 h h2 h3).ofBuf (Val := Elt Ideal) v = v := rfl
theorem toBuf_v12 (h h2 h3) (v : (⟨Cert.KernelIdeal.S50000, .f32⟩ : BufTy).Contents (Elt Ideal)) :
    (TRef.of (T := ⟨Cert.KernelIdeal.S50000, .f32⟩) Cert.KernelIdeal.main_v12 h h2 h3).toBuf (Val := Elt Ideal) v = v := rfl

set_option maxHeartbeats 4000000 in
/-- T1 = L·h. -/
theorem T1_eq (c : Dev Cert.KernelIdeal.nD) :
    (Cert.KernelIdeal.Entry.V m c Cert.KernelIdeal.main_v42 : Cert.KernelIdeal.S50000x128.Idx → EReal)
      = Cert.ReferenceIdeal.Read.val_main_v43 (F := Ideal) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg19)) := by
  dsimp only [Cert.KernelIdeal.Entry.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst, Cert.ReferenceIdeal.Read.val_main_v4, Cert.ReferenceIdeal.Read.val_main_v5, Cert.ReferenceIdeal.Read.val_main_v6, Cert.ReferenceIdeal.Read.val_main_cst_0, Cert.ReferenceIdeal.Read.val_main_v7, Cert.ReferenceIdeal.Read.val_main_v8, Cert.ReferenceIdeal.Read.val_main_cst_1, Cert.ReferenceIdeal.Read.val_main_v9, Cert.ReferenceIdeal.Read.val_main_v10, Cert.ReferenceIdeal.Read.val_main_v11, Cert.ReferenceIdeal.Read.val_main_cst_2, Cert.ReferenceIdeal.Read.val_main_call0_v0, Cert.ReferenceIdeal.Read.val_main_call0_v1, Cert.ReferenceIdeal.Read.val_main_v12, Cert.ReferenceIdeal.Read.val_main_v13, Cert.ReferenceIdeal.Read.val_main_c, Cert.ReferenceIdeal.Read.val_main_v14, Cert.ReferenceIdeal.Read.val_main_v15, Cert.ReferenceIdeal.Read.val_main_c_3, Cert.ReferenceIdeal.Read.val_main_v16, Cert.ReferenceIdeal.Read.val_main_v17, Cert.ReferenceIdeal.Read.val_main_v18, Cert.ReferenceIdeal.Read.val_main_v19, Cert.ReferenceIdeal.Read.val_main_v20, Cert.ReferenceIdeal.Read.val_main_v21, Cert.ReferenceIdeal.Read.val_main_c_4, Cert.ReferenceIdeal.Read.val_main_v22, Cert.ReferenceIdeal.Read.val_main_v23, Cert.ReferenceIdeal.Read.val_main_c_5, Cert.ReferenceIdeal.Read.val_main_v24, Cert.ReferenceIdeal.Read.val_main_v25, Cert.ReferenceIdeal.Read.val_main_v26, Cert.ReferenceIdeal.Read.val_main_v27, Cert.ReferenceIdeal.Read.val_main_v28, Cert.ReferenceIdeal.Read.val_main_v29, Cert.ReferenceIdeal.Read.val_main_v31, Cert.ReferenceIdeal.Read.val_main_c_6, Cert.ReferenceIdeal.Read.val_main_v32, Cert.ReferenceIdeal.Read.val_main_v33, Cert.ReferenceIdeal.Read.val_main_c_7, Cert.ReferenceIdeal.Read.val_main_v34, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_cst_8, Cert.ReferenceIdeal.Read.val_main_v41, Cert.ReferenceIdeal.Read.val_main_v42, Cert.ReferenceIdeal.Read.val_main_v43, Cert.ReferenceIdeal.Read.val_main_v51, Cert.ReferenceIdeal.Read.val_main_c_9, Cert.ReferenceIdeal.Read.val_main_v52, Cert.ReferenceIdeal.Read.val_main_v53, Cert.ReferenceIdeal.Read.val_main_c_10, Cert.ReferenceIdeal.Read.val_main_v54, Cert.ReferenceIdeal.Read.val_main_v55, Cert.ReferenceIdeal.Read.val_main_v56, Cert.ReferenceIdeal.Read.val_main_v57, Cert.ReferenceIdeal.Read.val_main_v58, Cert.ReferenceIdeal.Read.val_main_v59, Cert.ReferenceIdeal.Read.val_main_v60, Cert.ReferenceIdeal.Read.val_main_cst_11, Cert.ReferenceIdeal.Read.val_main_v61, Cert.ReferenceIdeal.Read.val_main_v62, Cert.ReferenceIdeal.Read.val_main_v63, Cert.ReferenceIdeal.Read.val_main_cst_12, Cert.ReferenceIdeal.Read.val_main_v64, Cert.ReferenceIdeal.Read.val_main_v65, Cert.ReferenceIdeal.Read.val_main_v66]
  simp only [Cert.LibFoldSegments.ofBuf_toBuf, ofBuf_v8, ofBuf_v11, ofBuf_cst2, toBuf_v12]
  rfl

set_option maxHeartbeats 4000000 in
/-- T2 = 2·L·T1 − h. -/
theorem T2_eq (c : Dev Cert.KernelIdeal.nD) :
    (Cert.KernelIdeal.Entry.V m c Cert.KernelIdeal.main_v58 : Cert.KernelIdeal.S50000x128.Idx → EReal)
      = Cert.ReferenceIdeal.Read.val_main_v66 (F := Ideal) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg19)) := by
  dsimp only [Cert.KernelIdeal.Entry.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst, Cert.ReferenceIdeal.Read.val_main_v4, Cert.ReferenceIdeal.Read.val_main_v5, Cert.ReferenceIdeal.Read.val_main_v6, Cert.ReferenceIdeal.Read.val_main_cst_0, Cert.ReferenceIdeal.Read.val_main_v7, Cert.ReferenceIdeal.Read.val_main_v8, Cert.ReferenceIdeal.Read.val_main_cst_1, Cert.ReferenceIdeal.Read.val_main_v9, Cert.ReferenceIdeal.Read.val_main_v10, Cert.ReferenceIdeal.Read.val_main_v11, Cert.ReferenceIdeal.Read.val_main_cst_2, Cert.ReferenceIdeal.Read.val_main_call0_v0, Cert.ReferenceIdeal.Read.val_main_call0_v1, Cert.ReferenceIdeal.Read.val_main_v12, Cert.ReferenceIdeal.Read.val_main_v13, Cert.ReferenceIdeal.Read.val_main_c, Cert.ReferenceIdeal.Read.val_main_v14, Cert.ReferenceIdeal.Read.val_main_v15, Cert.ReferenceIdeal.Read.val_main_c_3, Cert.ReferenceIdeal.Read.val_main_v16, Cert.ReferenceIdeal.Read.val_main_v17, Cert.ReferenceIdeal.Read.val_main_v18, Cert.ReferenceIdeal.Read.val_main_v19, Cert.ReferenceIdeal.Read.val_main_v20, Cert.ReferenceIdeal.Read.val_main_v21, Cert.ReferenceIdeal.Read.val_main_c_4, Cert.ReferenceIdeal.Read.val_main_v22, Cert.ReferenceIdeal.Read.val_main_v23, Cert.ReferenceIdeal.Read.val_main_c_5, Cert.ReferenceIdeal.Read.val_main_v24, Cert.ReferenceIdeal.Read.val_main_v25, Cert.ReferenceIdeal.Read.val_main_v26, Cert.ReferenceIdeal.Read.val_main_v27, Cert.ReferenceIdeal.Read.val_main_v28, Cert.ReferenceIdeal.Read.val_main_v29, Cert.ReferenceIdeal.Read.val_main_v31, Cert.ReferenceIdeal.Read.val_main_c_6, Cert.ReferenceIdeal.Read.val_main_v32, Cert.ReferenceIdeal.Read.val_main_v33, Cert.ReferenceIdeal.Read.val_main_c_7, Cert.ReferenceIdeal.Read.val_main_v34, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_cst_8, Cert.ReferenceIdeal.Read.val_main_v41, Cert.ReferenceIdeal.Read.val_main_v42, Cert.ReferenceIdeal.Read.val_main_v43, Cert.ReferenceIdeal.Read.val_main_v51, Cert.ReferenceIdeal.Read.val_main_c_9, Cert.ReferenceIdeal.Read.val_main_v52, Cert.ReferenceIdeal.Read.val_main_v53, Cert.ReferenceIdeal.Read.val_main_c_10, Cert.ReferenceIdeal.Read.val_main_v54, Cert.ReferenceIdeal.Read.val_main_v55, Cert.ReferenceIdeal.Read.val_main_v56, Cert.ReferenceIdeal.Read.val_main_v57, Cert.ReferenceIdeal.Read.val_main_v58, Cert.ReferenceIdeal.Read.val_main_v59, Cert.ReferenceIdeal.Read.val_main_v60, Cert.ReferenceIdeal.Read.val_main_cst_11, Cert.ReferenceIdeal.Read.val_main_v61, Cert.ReferenceIdeal.Read.val_main_v62, Cert.ReferenceIdeal.Read.val_main_v63, Cert.ReferenceIdeal.Read.val_main_cst_12, Cert.ReferenceIdeal.Read.val_main_v64, Cert.ReferenceIdeal.Read.val_main_v65, Cert.ReferenceIdeal.Read.val_main_v66]
  simp only [Cert.LibFoldSegments.ofBuf_toBuf, ofBuf_v8, ofBuf_v11, ofBuf_cst2, toBuf_v12]
  rfl

end Cert.SparseSame

end
-- ==== Proof.Claims.lean ====
/-
  The five claims.

  The frames of the two kernel programs are their runs' (the region's launch over the hand-proved body); the
  reference's is its run with the results dropped. The idealization rewrote nothing, so there is nothing to
  preserve. For the algebraic claim both programs are read at the extended reals: the kernel's two result
  arrays end as the hidden-state and cell-state functions of the arguments and the two sparse products as the
  region finds them; the reference's two results are the same functions of its arguments and its own stages
  for the sparse products, index by index; the arguments agree, and the sparse products are the same terms of
  them. The only law used is associativity of addition (in regrouping a gate's five terms).
-/
import proofs.«174544_j50483045597456_1_alg».proof.Defs
import proofs.«174544_j50483045597456_1_alg».proof.Proof.BodyKernel
import proofs.«174544_j50483045597456_1_alg».proof.Proof.WholeKernelIdeal
import proofs.«174544_j50483045597456_1_alg».proof.Proof.RefCell
import proofs.«174544_j50483045597456_1_alg».proof.Proof.SparseSame
import proofs.«174544_j50483045597456_1_alg».proof.Proof.Gen.Kernel
import proofs.«174544_j50483045597456_1_alg».proof.Proof.Gen.KernelIdeal
import proofs.«174544_j50483045597456_1_alg».proof.Proof.Gen.ReferenceIdeal
import proofs.«174544_j50483045597456_1_alg».proof.Proof.Gen.Pre_finite_inputs

set_option maxRecDepth 65536

noncomputable section

namespace Cert.Proof.Claims

open Idealize.ShloMosaic.TcCoe
open Idealize.ShloMosaic Idealize.ShloMosaic.ValueIdx Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

set_option maxHeartbeats 4000000 in
/-- The reference's hidden-state result, from arguments that agree with the kernel's, is the kernel's. -/
theorem hidden_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.Value.res_main_v245 m' c = Cert.KernelIdeal.Whole.hiddenArr m c := by
  obtain ⟨e0, e1, e2, e3, e4, e5, e6, e7, e8, e9, e10, e11, e12, e13, e14, e15, e16, e17, e18, e19⟩ := hagree
  rw [Cert.ReferenceIdeal.Read.val_main_v245_eq, e0, e1, e2, e3, e4, e5, e6, e7, e8, e9, e10, e11, e12, e13, e14, e15, e16, e17, e18, e19]
  funext i
  obtain ⟨r, j, rfl⟩ : ∃ (r : Fin 50000) (j : Fin 128), i = ix2 r j := ⟨i 0, i 1, eq_ix2 i⟩
  rw [Cert.ReferenceIdeal.RefCell.hidden_apply]
  unfold Cert.KernelIdeal.Whole.hiddenArr
  rw [Cert.SparseSame.T1_eq m c, Cert.SparseSame.T2_eq m c]

set_option maxHeartbeats 4000000 in
/-- The reference's cell-state result, from arguments that agree with the kernel's, is the kernel's. -/
theorem cell_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.Value.res_main_v188 m' c = Cert.KernelIdeal.Whole.cellArr m c := by
  obtain ⟨e0, e1, e2, e3, e4, e5, e6, e7, e8, e9, e10, e11, e12, e13, e14, e15, e16, e17, e18, e19⟩ := hagree
  rw [Cert.ReferenceIdeal.Read.val_main_v188_eq, e0, e1, e2, e3, e4, e5, e6, e8, e9, e10, e12, e13, e14, e16, e17, e19]
  funext i
  obtain ⟨r, j, rfl⟩ : ∃ (r : Fin 50000) (j : Fin 128), i = ix2 r j := ⟨i 0, i 1, eq_ix2 i⟩
  rw [Cert.ReferenceIdeal.RefCell.cell_apply]
  unfold Cert.KernelIdeal.Whole.cellArr
  rw [Cert.SparseSame.T1_eq m c, Cert.SparseSame.T2_eq m c]

theorem algebraic : Cert.algebraic_KernelIdeal_ReferenceIdeal := by
  intro m ρ m' ρ' _ hagree
  refine ⟨fun c => Cert.KernelIdeal.Whole.hiddenArr m c, fun c => Cert.KernelIdeal.Whole.cellArr m c, Cert.KernelIdeal.Whole.run m ρ, ?_⟩
  exact (θ_run Cert.ReferenceIdeal.defs _ _).mono
    (fun _ h c => ⟨(h c).1.trans (hidden_same m m' c (hagree c)), (h c).2.1.trans (cell_same m m' c (hagree c)), (h c).2.2⟩)
    (Cert.ReferenceIdeal.Value.run (F := Ideal) m' ρ')

end Cert.Proof.Claims

end
-- ==== Proof.lean ====
/-
  The certificate of a graph-convolutional LSTM cell: a pipelined kernel over 25 blocks of 2000 nodes, fed by
  host operations that build the two sparse Chebyshev products and lay the four gates' weights side by side,
  against a reference that computes each gate's convolution separately.

  Proof/CellSpec.lean states the cell's mathematics free of any program and joins the two groupings of a gate's
  five terms (associativity of addition on the extended reals; no finiteness is used). Proof/Entry*.lean and
  Proof/Body*.lean give each kernel program's run from the launch of its one region over the body's triple, and
  with it the frame. Proof/PayKernelIdeal.lean reads the body's arithmetic at an entry of a block,
  Proof/ArraysKernelIdeal.lean the host-built arrays at an index, Proof/WholeKernelIdeal.lean puts the blocks
  together into the two result arrays. Proof/RefCell.lean reads the reference's results at an index,
  Proof/SparseSame.lean shows the sparse products are the same terms in both programs, and Proof/Claims.lean
  assembles the five claims behind the witnesses of the programs' stated facts.
-/
import proofs.«174544_j50483045597456_1_alg».proof.Defs
import proofs.«174544_j50483045597456_1_alg».proof.Proof.Claims
import proofs.«174544_j50483045597456_1_alg».proof.Proof.Gen.Kernel
import proofs.«174544_j50483045597456_1_alg».proof.Proof.Gen.Kernel.Skeleton
import proofs.«174544_j50483045597456_1_alg».proof.Proof.Gen.Kernel.Launch
import proofs.«174544_j50483045597456_1_alg».proof.Proof.Gen.Kernel.Points
import proofs.«174544_j50483045597456_1_alg».proof.Proof.Gen.KernelIdeal
import proofs.«174544_j50483045597456_1_alg».proof.Proof.Gen.KernelIdeal.Skeleton
import proofs.«174544_j50483045597456_1_alg».proof.Proof.Gen.KernelIdeal.Launch
import proofs.«174544_j50483045597456_1_alg».proof.Proof.Gen.KernelIdeal.Points
import proofs.«174544_j50483045597456_1_alg».proof.Proof.Gen.ReferenceIdeal
import proofs.«174544_j50483045597456_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
